-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256x256 .f32) (main_arg9 : FVec F S256 .f32) (main_arg10 : FVec F S256x256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S256x256 .f32) (main_arg9 : FVec F S256 .f32) (main_arg10 : FVec F S256x256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x256 .f32) (main_arg6 : FVec F S256 .f32) (main_arg7 : FVec F S256x256 .f32) (main_arg8 : FVec F S256x256 .f32) (main_arg9 : FVec F S256 .f32) (main_arg10 : FVec F S256x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S800000x256 : Shape := ⟨2, ![800000, 256]⟩

abbrev nBuf : Space → Nat
  | .hbm => 72
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000x1, .f32⟩
  | .hbm, ⟨17, _⟩ => ⟨S_, .f32⟩
  | .hbm, ⟨18, _⟩ => ⟨S50000x1, .f32⟩
  | .hbm, ⟨19, _⟩ => ⟨S800000x1, .i32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x256, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S_, .f32⟩
  | .hbm, ⟨50, _⟩ => ⟨S50000x256, .f32⟩
  | .hbm, ⟨51, _⟩ => ⟨S800000x1, .i32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x256, .f32⟩
  | .hbm, ⟨65, _⟩ => ⟨S_, .f32⟩
  | .hbm, ⟨66, _⟩ => ⟨S50000x256, .f32⟩
  | .hbm, ⟨67, _⟩ => ⟨S800000x1, .i32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S256, .f32⟩
  | .local _ .vmem, ⟨24, _⟩ => ⟨S256x256, .f32⟩
  | .local _ .vmem, ⟨25, _⟩ => ⟨S2000x256, .f32⟩
  | .local _ .vmem, ⟨26, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000x1, .f32⟩
  | .hbm, ⟨30, _⟩ => ⟨S_, .f32⟩
  | .hbm, ⟨31, _⟩ => ⟨S50000x1, .f32⟩
  | .hbm, ⟨32, _⟩ => ⟨S800000x1, .i32⟩
  | .hbm, ⟨33, _⟩ => ⟨S50000x1, .f32⟩
  | .hbm, ⟨34, _⟩ => ⟨S_, .f32⟩
  | .hbm, ⟨35, _⟩ => ⟨S50000x1, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000x1, .f32⟩
  | .hbm, ⟨63, _⟩ => ⟨S_, .f32⟩
  | .hbm, ⟨64, _⟩ => ⟨S50000x1, .f32⟩
  | .hbm, ⟨65, _⟩ => ⟨S800000x1, .i32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .f32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S1x256, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S_, .f32⟩
  | .hbm, ⟨79, _⟩ => ⟨S50000x256, .f32⟩
  | .hbm, ⟨80, _⟩ => ⟨S50000x256, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x256, .f32⟩
  | .hbm, ⟨90, _⟩ => ⟨S_, .f32⟩
  | .hbm, ⟨91, _⟩ => ⟨S50000x256, .f32⟩
  | .hbm, ⟨92, _⟩ => ⟨S800000x1, .i32⟩
  | .hbm, ⟨93, _⟩ => ⟨S50000x256, .f32⟩
  | .hbm, ⟨94, _⟩ => ⟨S_, .f32⟩
  | .hbm, ⟨95, _⟩ => ⟨S800000x1, .f32⟩
  | .hbm, ⟨96, _⟩ => ⟨S_, .f32⟩
  | .hbm, ⟨97, _⟩ => ⟨S50000x1, .f32⟩
  | .hbm, ⟨98, _⟩ => ⟨S800000x1, .i32⟩
  | .hbm, ⟨99, _⟩ => ⟨S50000x1, .f32⟩
  | .hbm, ⟨100, _⟩ => ⟨S_, .f32⟩
  | .hbm, ⟨101, _⟩ => ⟨S50000x1, .f32⟩
  | .hbm, ⟨102, _⟩ => ⟨S50000x1, .f32⟩
  | .hbm, ⟨103, _⟩ => ⟨S50000x256, .f32⟩
  | .hbm, ⟨104, _⟩ => ⟨S50000x256, .f32⟩
  | .hbm, ⟨105, _⟩ => ⟨S50000x256, .f32⟩
  | .hbm, ⟨106, _⟩ => ⟨S1x256, .f32⟩
  | .hbm, ⟨107, _⟩ => ⟨S50000x256, .f32⟩
  | .hbm, ⟨108, _⟩ => ⟨S50000x256, .f32⟩
  | .hbm, ⟨109, _⟩ => ⟨S50000x256, .f32⟩
  | .hbm, ⟨110, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibSageDense.lean ====
/-
  One dense layer of a mean-aggregating graph convolution, entry by entry, on the extended reals.

  For an aggregated feature matrix `a` and a root feature matrix `h` (both N × K), weight matrices `Wl`, `Wr`
  (K × M) and a bias row `b` (M), the layer's entry (p, q) is

      (∑ₖ a(p,k)·Wl(k,q) + b(q)) + ∑ₖ h(p,k)·Wr(k,q),

  clamped below at 0 when the layer is rectified. The same entry with the bias added last,
  (∑ₖ a·Wl + ∑ₖ h·Wr) + b, is the same extended real: addition on the extended reals is commutative and
  associative, so no finiteness is needed (`denseAt_bias_last`). Three stacked layers, each fed the aggregation of
  the previous layer's output, are `net`.
-/
import Idealize.ShloMosaic.PureOps.Ideal
import Idealize.ShloMosaic.Lib.ValueIdx

noncomputable section

namespace Cert.Sage

open Idealize.ShloMosaic Idealize.ShloMosaic.ValueIdx

/-- The layer's sum at entry (p, q) before any clamping: the bias joins the aggregated product first. -/
def preAt {N K M : Nat} (a h : (⟨2, ![N, K]⟩ : Shape).Idx → EReal) (Wl Wr : (⟨2, ![K, M]⟩ : Shape).Idx → EReal)
    (b : (⟨1, ![M]⟩ : Shape).Idx → EReal) (p : Fin N) (q : Fin M) : EReal :=
  ((∑ k : Fin K, a (ix2 p k) * Wl (ix2 k q)) + b (ix1 q)) + ∑ k : Fin K, h (ix2 p k) * Wr (ix2 k q)

/-- The layer's entry (p, q): the sum, clamped below at 0 when `relu`. -/
def denseAt {N K M : Nat} (relu : Bool) (a h : (⟨2, ![N, K]⟩ : Shape).Idx → EReal) (Wl Wr : (⟨2, ![K, M]⟩ : Shape).Idx → EReal)
    (b : (⟨1, ![M]⟩ : Shape).Idx → EReal) (p : Fin N) (q : Fin M) : EReal :=
  if relu then max (preAt a h Wl Wr b p q) 0 else preAt a h Wl Wr b p q

/-- The layer as a whole N × M array. -/
def dense {N K M : Nat} (relu : Bool) (a h : (⟨2, ![N, K]⟩ : Shape).Idx → EReal) (Wl : (⟨2, ![K, M]⟩ : Shape).Idx → EReal)
    (b : (⟨1, ![M]⟩ : Shape).Idx → EReal) (Wr : (⟨2, ![K, M]⟩ : Shape).Idx → EReal) : (⟨2, ![N, M]⟩ : Shape).Idx → EReal :=
  fun i => denseAt relu a h Wl Wr b (i 0) (i 1)

theorem dense_apply {N K M : Nat} (relu : Bool) (a h : (⟨2, ![N, K]⟩ : Shape).Idx → EReal) (Wl : (⟨2, ![K, M]⟩ : Shape).Idx → EReal)
    (b : (⟨1, ![M]⟩ : Shape).Idx → EReal) (Wr : (⟨2, ![K, M]⟩ : Shape).Idx → EReal) (p : Fin N) (q : Fin M) :
    dense relu a h Wl b Wr (ix2 p q) = denseAt relu a h Wl Wr b p q := rfl

/-- With the bias added last instead — both matrix products first — the sum is the same extended real. -/
theorem preAt_bias_last {N K M : Nat} (a h : (⟨2, ![N, K]⟩ : Shape).Idx → EReal) (Wl Wr : (⟨2, ![K, M]⟩ : Shape).Idx → EReal)
    (b : (⟨1, ![M]⟩ : Shape).Idx → EReal) (p : Fin N) (q : Fin M) :
    ((∑ k : Fin K, a (ix2 p k) * Wl (ix2 k q)) + ∑ k : Fin K, h (ix2 p k) * Wr (ix2 k q)) + b (ix1 q) = preAt a h Wl Wr b p q :=
  add_right_comm _ _ _

/-- Three layers, the first two rectified; each layer's aggregated input is an aggregation (`aggA` on K₀ columns,
    `aggB` on M columns) of the features the layer also reads as its root input. -/
def net {N K₀ M : Nat} (aggA : ((⟨2, ![N, K₀]⟩ : Shape).Idx → EReal) → (⟨2, ![N, K₀]⟩ : Shape).Idx → EReal)
    (aggB : ((⟨2, ![N, M]⟩ : Shape).Idx → EReal) → (⟨2, ![N, M]⟩ : Shape).Idx → EReal)
    (x : (⟨2, ![N, K₀]⟩ : Shape).Idx → EReal)
    (Wl0 : (⟨2, ![K₀, M]⟩ : Shape).Idx → EReal) (b0 : (⟨1, ![M]⟩ : Shape).Idx → EReal) (Wr0 : (⟨2, ![K₀, M]⟩ : Shape).Idx → EReal)
    (Wl1 : (⟨2, ![M, M]⟩ : Shape).Idx → EReal) (b1 : (⟨1, ![M]⟩ : Shape).Idx → EReal) (Wr1 : (⟨2, ![M, M]⟩ : Shape).Idx → EReal)
    (Wl2 : (⟨2, ![M, M]⟩ : Shape).Idx → EReal) (b2 : (⟨1, ![M]⟩ : Shape).Idx → EReal) (Wr2 : (⟨2, ![M, M]⟩ : Shape).Idx → EReal) :
    (⟨2, ![N, M]⟩ : Shape).Idx → EReal :=
  dense false (aggB (dense true (aggB (dense true (aggA x) x Wl0 b0 Wr0)) (dense true (aggA x) x Wl0 b0 Wr0) Wl1 b1 Wr1))
    (dense true (aggB (dense true (aggA x) x Wl0 b0 Wr0)) (dense true (aggA x) x Wl0 b0 Wr0) Wl1 b1 Wr1) Wl2 b2 Wr2

end Cert.Sage

end
-- ==== Proof.KernelAgg.lean ====
/-
  The mean aggregation over incoming edges, as the host operations spell it, for the program `KernelIdeal`.

  From the edge list e (2 × E): the source row s = e[0] and the destination row d = e[1]. A negative source index wraps
  by the node count N; `srcIdx` is the wrapped column the row gather reads with, `dstIdx` the column the scatter-add
  writes with. `cntOf d` is the in-degree of every node, at least 1: max(scatter-add of ones by d, 1). The mean
  aggregation of a feature matrix h is (scatter-add by d of the rows of h gathered by s) / in-degree, the in-degree
  column spread across the feature axis.
-/
import proofs.«163233_j8615704396355_1_alg».proof.Proof.Gen.KernelIdeal

noncomputable section

namespace Cert.KernelIdeal.Agg

open Cert.KernelIdeal Cert.KernelIdeal.Gen Idealize.ShloMosaic

variable {F : FTy → Type} [FloatOps F]

/-- The source row of the edge list. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The destination row of the edge list. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The gather's index column: a negative source index wraps by the node count. -/
def srcIdx (s : (⟨S800000, .i32⟩ : BufTy).Contents (Elt F)) : (⟨S800000x1, .i32⟩ : BufTy).Contents (Elt F) :=
  broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)

/-- The scatter's index column. -/
def dstIdx (d : (⟨S800000, .i32⟩ : BufTy).Contents (Elt F)) : (⟨S800000x1, .i32⟩ : BufTy).Contents (Elt F) :=
  broadcastInDim S800000x1 ![0] bcast_S800000_S800000x1_0 d

/-- Every node's in-degree, at least 1. -/
def cntOf (d : (⟨S800000, .i32⟩ : BufTy).Contents (Elt F)) : (⟨S50000x1, .f32⟩ : BufTy).Contents (Elt F) :=
  maximumf (Host.scatterAdd scatter_S50000x1_S800000x1_S800000x1_1_0_0_1 (broadcastInDim S50000x1 ![] bcast_S_S50000x1 (constant S_ .f32 0x00000000#32)) (dstIdx d) (broadcastInDim S800000x1 ![] bcast_S_S800000x1 (constant S_ .f32 0x3F800000#32))) (broadcastInDim S50000x1 ![] bcast_S_S50000x1 (constant S_ .f32 0x3F800000#32))

/-- The mean aggregation of 128-column features. -/
def agg128 (s d : (⟨S800000, .i32⟩ : BufTy).Contents (Elt F)) (cnt : (⟨S50000x1, .f32⟩ : BufTy).Contents (Elt F))
    (h : (⟨S50000x128, .f32⟩ : BufTy).Contents (Elt F)) : (⟨S50000x128, .f32⟩ : BufTy).Contents (Elt F) :=
  Host.divf (Host.scatterAdd scatter_S50000x128_S800000x1_S800000x128_1_0_0_1 (broadcastInDim S50000x128 ![] bcast_S_S50000x128 (constant S_ .f32 0x00000000#32)) (dstIdx d) (Host.gather gather_S50000x128_S800000x1_S800000x128_1_0_n_n_0_1_1128 h (srcIdx s))) (broadcastInDim S50000x128 ![0, 1] bcast_S50000x1_S50000x128_0_1 cnt)

/-- The mean aggregation of 256-column features. -/
def agg256 (s d : (⟨S800000, .i32⟩ : BufTy).Contents (Elt F)) (cnt : (⟨S50000x1, .f32⟩ : BufTy).Contents (Elt F))
    (h : (⟨S50000x256, .f32⟩ : BufTy).Contents (Elt F)) : (⟨S50000x256, .f32⟩ : BufTy).Contents (Elt F) :=
  Host.divf (Host.scatterAdd scatter_S50000x256_S800000x1_S800000x256_1_0_0_1 (broadcastInDim S50000x256 ![] bcast_S_S50000x256 (constant S_ .f32 0x00000000#32)) (dstIdx d) (Host.gather gather_S50000x256_S800000x1_S800000x256_1_0_n_n_0_1_1256 h (srcIdx s))) (broadcastInDim S50000x256 ![0, 1] bcast_S50000x1_S50000x256_0_1 cnt)

end Cert.KernelIdeal.Agg

end
-- ==== Proof.RefAgg.lean ====
/-
  The mean aggregation over incoming edges, as the host operations spell it, for the program `ReferenceIdeal`.

  From the edge list e (2 × E): the source row s = e[0] and the destination row d = e[1]. A negative source index wraps
  by the node count N; `srcIdx` is the wrapped column the row gather reads with, `dstIdx` the column the scatter-add
  writes with. `cntOf d` is the in-degree of every node, at least 1: max(scatter-add of ones by d, 1). The mean
  aggregation of a feature matrix h is (scatter-add by d of the rows of h gathered by s) / in-degree, the in-degree
  column spread across the feature axis.
-/
import proofs.«163233_j8615704396355_1_alg».proof.Proof.Gen.ReferenceIdeal

noncomputable section

namespace Cert.ReferenceIdeal.Agg

open Cert.ReferenceIdeal Cert.ReferenceIdeal.Gen Idealize.ShloMosaic

variable {F : FTy → Type} [FloatOps F]

/-- The source row of the edge list. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The destination row of the edge list. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The gather's index column: a negative source index wraps by the node count. -/
def srcIdx (s : (⟨S800000, .i32⟩ : BufTy).Contents (Elt F)) : (⟨S800000x1, .i32⟩ : BufTy).Contents (Elt F) :=
  broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)

/-- The scatter's index column. -/
def dstIdx (d : (⟨S800000, .i32⟩ : BufTy).Contents (Elt F)) : (⟨S800000x1, .i32⟩ : BufTy).Contents (Elt F) :=
  broadcastInDim S800000x1 ![0] bcast_S800000_S800000x1_0 d

/-- Every node's in-degree, at least 1. -/
def cntOf (d : (⟨S800000, .i32⟩ : BufTy).Contents (Elt F)) : (⟨S50000x1, .f32⟩ : BufTy).Contents (Elt F) :=
  maximumf (Host.scatterAdd scatter_S50000x1_S800000x1_S800000x1_1_0_0_1 (broadcastInDim S50000x1 ![] bcast_S_S50000x1 (constant S_ .f32 0x00000000#32)) (dstIdx d) (broadcastInDim S800000x1 ![] bcast_S_S800000x1 (constant S_ .f32 0x3F800000#32))) (broadcastInDim S50000x1 ![] bcast_S_S50000x1 (constant S_ .f32 0x3F800000#32))

/-- The mean aggregation of 128-column features. -/
def agg128 (s d : (⟨S800000, .i32⟩ : BufTy).Contents (Elt F)) (cnt : (⟨S50000x1, .f32⟩ : BufTy).Contents (Elt F))
    (h : (⟨S50000x128, .f32⟩ : BufTy).Contents (Elt F)) : (⟨S50000x128, .f32⟩ : BufTy).Contents (Elt F) :=
  Host.divf (Host.scatterAdd scatter_S50000x128_S800000x1_S800000x128_1_0_0_1 (broadcastInDim S50000x128 ![] bcast_S_S50000x128 (constant S_ .f32 0x00000000#32)) (dstIdx d) (Host.gather gather_S50000x128_S800000x1_S800000x128_1_0_n_n_0_1_1128 h (srcIdx s))) (broadcastInDim S50000x128 ![0, 1] bcast_S50000x1_S50000x128_0_1 cnt)

/-- The mean aggregation of 256-column features. -/
def agg256 (s d : (⟨S800000, .i32⟩ : BufTy).Contents (Elt F)) (cnt : (⟨S50000x1, .f32⟩ : BufTy).Contents (Elt F))
    (h : (⟨S50000x256, .f32⟩ : BufTy).Contents (Elt F)) : (⟨S50000x256, .f32⟩ : BufTy).Contents (Elt F) :=
  Host.divf (Host.scatterAdd scatter_S50000x256_S800000x1_S800000x256_1_0_0_1 (broadcastInDim S50000x256 ![] bcast_S_S50000x256 (constant S_ .f32 0x00000000#32)) (dstIdx d) (Host.gather gather_S50000x256_S800000x1_S800000x256_1_0_n_n_0_1_1256 h (srcIdx s))) (broadcastInDim S50000x256 ![0, 1] bcast_S50000x1_S50000x256_0_1 cnt)

end Cert.ReferenceIdeal.Agg

end
-- ==== Proof.KernelResultRun.lean ====
/-
  The idealized kernel's whole run with its RESULT named: every weakly fair execution of the program — a stretch of
  host operations, a pipelined region, and so on, three regions in all — terminates without a fault, leaves every
  argument array as launched, and leaves the result array at the contents the last boundary assigns it
  (`W6 … main_v48`: the launch memory folded through the three host stretches and the three regions' write-backs).
  The statement holds at any float instance. It is the several-region launch theorem applied to the program's
  segments, the last thread state read against the final memory at the result buffer as well as at the arguments.
-/
import proofs.«163233_j8615704396355_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents
    and every argument array as launched. -/
theorem run_result : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Result

end
-- ==== Proof.KernelChain.lean ====
/-
  The result array of the idealized kernel, as one function of the launched arguments.

  The program is a fold through six boundaries: a stretch of host operations, a pipelined region, and so on. From the
  launched edge list the first stretch computes, once, the source row s, the destination row d and the in-degree column
  cnt, and the first layer's aggregated input; each later stretch computes the next layer's aggregated input from the
  previous region's output and the same s, d, cnt; each region writes one dense layer of its two feature inputs, its
  two weight matrices and its bias row. Nothing else writes a buffer a later step reads, so every read walks back to
  the boundary that wrote it. Composed, the result is three stacked layers (`Cert.Sage.net`) over the mean
  aggregation (`Agg.agg128`, `Agg.agg256`) of the launched arguments. Each region's output array, as the dense layer of
  the arrays the region is entered with, is taken here as a hypothesis (`R0`, `R1`, `R2`).
-/
import proofs.«163233_j8615704396355_1_alg».proof.Proof.Gen.KernelIdeal.Frame
import proofs.«163233_j8615704396355_1_alg».proof.Proof.KernelAgg
import proofs.«163233_j8615704396355_1_alg».proof.Proof.LibSageDense
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.StableHlo
open Idealize.SL.Sem

/-- What a region's output array holds after the region, for any contents `V` the region is entered with: layer 0. -/
abbrev Region0 : Prop := ∀ (V : (c : Dev nD) → (b : Ref sig .tc) → Buf (Elt Ideal) ((c : Thread nD τ).loc b)) (c : Dev nD),
  (dat0 (F := Ideal) V c).arrAt 5 cfg0.N = Cert.Sage.dense (N := 50000) (K := 128) (M := 256) true (V c main_v21) (V c main_arg0) (V c main_arg2) (V c main_arg3) (V c main_arg4)
/-- Layer 1. -/
abbrev Region1 : Prop := ∀ (V : (c : Dev nD) → (b : Ref sig .tc) → Buf (Elt Ideal) ((c : Thread nD τ).loc b)) (c : Dev nD),
  (dat1 (F := Ideal) V c).arrAt 5 cfg1.N = Cert.Sage.dense (N := 50000) (K := 256) (M := 256) true (V c main_v34) (V c main_v22) (V c main_arg5) (V c main_arg6) (V c main_arg7)
/-- Layer 2 (not rectified). -/
abbrev Region2 : Prop := ∀ (V : (c : Dev nD) → (b : Ref sig .tc) → Buf (Elt Ideal) ((c : Thread nD τ).loc b)) (c : Dev nD),
  (dat2 (F := Ideal) V c).arrAt 5 cfg2.N = Cert.Sage.dense (N := 50000) (K := 256) (M := 256) false (V c main_v47) (V c main_v35) (V c main_arg8) (V c main_arg9) (V c main_arg10)

variable (m : (ℓ : Loc nD τ sig) → Buf (Elt Ideal) ℓ) (ρ : Dev nD → PrngReg) (c : Dev nD)

/-- The source row, the destination row and the in-degree column of the launched edge list. -/
abbrev srcRow : (⟨S800000, .i32⟩ : BufTy).Contents (Elt Ideal) := Agg.srcOf (F := Ideal) (m ((c.tc : Thread nD τ).loc main_arg1))
abbrev dstRow : (⟨S800000, .i32⟩ : BufTy).Contents (Elt Ideal) := Agg.dstOf (F := Ideal) (m ((c.tc : Thread nD τ).loc main_arg1))
abbrev degCol : (⟨S50000x1, .f32⟩ : BufTy).Contents (Elt Ideal) := Agg.cntOf (F := Ideal) (dstRow m c)

/-- The first and the second layer's outputs. -/
def feat1 : (⟨S50000x256, .f32⟩ : BufTy).Contents (Elt Ideal) :=
  Cert.Sage.dense (N := 50000) (K := 128) (M := 256) true (Agg.agg128 (F := Ideal) (srcRow m c) (dstRow m c) (degCol m c) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4))
def feat2 : (⟨S50000x256, .f32⟩ : BufTy).Contents (Elt Ideal) :=
  Cert.Sage.dense (N := 50000) (K := 256) (M := 256) true (Agg.agg256 (F := Ideal) (srcRow m c) (dstRow m c) (degCol m c) (feat1 m c)) (feat1 m c) (m ((c.tc : Thread nD τ).loc main_arg5)) (m ((c.tc : Thread nD τ).loc main_arg6)) (m ((c.tc : Thread nD τ).loc main_arg7))

/-! ## After the first host stretch -/

theorem W1_v1 : W1 (F := Ideal) m ρ c (Proc.devRef .tc main_v1) = srcRow m c := by
  show StableHlo.after hostOps0 (W0 (F := Ideal) m ρ c) (Proc.devRef .tc main_v1) = _
  after_results <;> rfl
theorem W1_v3 : W1 (F := Ideal) m ρ c (Proc.devRef .tc main_v3) = dstRow m c := by
  show StableHlo.after hostOps0 (W0 (F := Ideal) m ρ c) (Proc.devRef .tc main_v3) = _
  after_results <;> rfl
theorem W1_v9 : W1 (F := Ideal) m ρ c (Proc.devRef .tc main_v9) = degCol m c := by
  show StableHlo.after hostOps0 (W0 (F := Ideal) m ρ c) (Proc.devRef .tc main_v9) = _
  after_results <;> rfl
set_option maxHeartbeats 1000000 in
theorem W1_v21 : W1 (F := Ideal) m ρ c (Proc.devRef .tc main_v21) = Agg.agg128 (F := Ideal) (srcRow m c) (dstRow m c) (degCol m c) (m ((c.tc : Thread nD τ).loc main_arg0)) := by
  show StableHlo.after hostOps0 (W0 (F := Ideal) m ρ c) (Proc.devRef .tc main_v21) = _
  after_results_simp <;> rfl
theorem W1_arg0 : W1 (F := Ideal) m ρ c (Proc.devRef .tc main_arg0) = (m ((c.tc : Thread nD τ).loc main_arg0)) := by
  show StableHlo.after hostOps0 (W0 (F := Ideal) m ρ c) (Proc.devRef .tc main_arg0) = _
  after_results <;> rfl
theorem W1_arg2 : W1 (F := Ideal) m ρ c (Proc.devRef .tc main_arg2) = (m ((c.tc : Thread nD τ).loc main_arg2)) := by
  show StableHlo.after hostOps0 (W0 (F := Ideal) m ρ c) (Proc.devRef .tc main_arg2) = _
  after_results <;> rfl
theorem W1_arg3 : W1 (F := Ideal) m ρ c (Proc.devRef .tc main_arg3) = (m ((c.tc : Thread nD τ).loc main_arg3)) := by
  show StableHlo.after hostOps0 (W0 (F := Ideal) m ρ c) (Proc.devRef .tc main_arg3) = _
  after_results <;> rfl
theorem W1_arg4 : W1 (F := Ideal) m ρ c (Proc.devRef .tc main_arg4) = (m ((c.tc : Thread nD τ).loc main_arg4)) := by
  show StableHlo.after hostOps0 (W0 (F := Ideal) m ρ c) (Proc.devRef .tc main_arg4) = _
  after_results <;> rfl
theorem W1_arg5 : W1 (F := Ideal) m ρ c (Proc.devRef .tc main_arg5) = (m ((c.tc : Thread nD τ).loc main_arg5)) := by
  show StableHlo.after hostOps0 (W0 (F := Ideal) m ρ c) (Proc.devRef .tc main_arg5) = _
  after_results <;> rfl
theorem W1_arg6 : W1 (F := Ideal) m ρ c (Proc.devRef .tc main_arg6) = (m ((c.tc : Thread nD τ).loc main_arg6)) := by
  show StableHlo.after hostOps0 (W0 (F := Ideal) m ρ c) (Proc.devRef .tc main_arg6) = _
  after_results <;> rfl
theorem W1_arg7 : W1 (F := Ideal) m ρ c (Proc.devRef .tc main_arg7) = (m ((c.tc : Thread nD τ).loc main_arg7)) := by
  show StableHlo.after hostOps0 (W0 (F := Ideal) m ρ c) (Proc.devRef .tc main_arg7) = _
  after_results <;> rfl
theorem W1_arg8 : W1 (F := Ideal) m ρ c (Proc.devRef .tc main_arg8) = (m ((c.tc : Thread nD τ).loc main_arg8)) := by
  show StableHlo.after hostOps0 (W0 (F := Ideal) m ρ c) (Proc.devRef .tc main_arg8) = _
  after_results <;> rfl
theorem W1_arg9 : W1 (F := Ideal) m ρ c (Proc.devRef .tc main_arg9) = (m ((c.tc : Thread nD τ).loc main_arg9)) := by
  show StableHlo.after hostOps0 (W0 (F := Ideal) m ρ c) (Proc.devRef .tc main_arg9) = _
  after_results <;> rfl
theorem W1_arg10 : W1 (F := Ideal) m ρ c (Proc.devRef .tc main_arg10) = (m ((c.tc : Thread nD τ).loc main_arg10)) := by
  show StableHlo.after hostOps0 (W0 (F := Ideal) m ρ c) (Proc.devRef .tc main_arg10) = _
  after_results <;> rfl

/-! ## After the first region -/

theorem W2_v1 : W2 (F := Ideal) m ρ c (Proc.devRef .tc main_v1) = srcRow m c :=
  (W2_of_ne m ρ c main_v1 (by decide)).trans (W1_v1 m ρ c)
theorem W2_v3 : W2 (F := Ideal) m ρ c (Proc.devRef .tc main_v3) = dstRow m c :=
  (W2_of_ne m ρ c main_v3 (by decide)).trans (W1_v3 m ρ c)
theorem W2_v9 : W2 (F := Ideal) m ρ c (Proc.devRef .tc main_v9) = degCol m c :=
  (W2_of_ne m ρ c main_v9 (by decide)).trans (W1_v9 m ρ c)
theorem W2_arg5 : W2 (F := Ideal) m ρ c (Proc.devRef .tc main_arg5) = (m ((c.tc : Thread nD τ).loc main_arg5)) :=
  (W2_of_ne m ρ c main_arg5 (by decide)).trans (W1_arg5 m ρ c)
theorem W2_arg6 : W2 (F := Ideal) m ρ c (Proc.devRef .tc main_arg6) = (m ((c.tc : Thread nD τ).loc main_arg6)) :=
  (W2_of_ne m ρ c main_arg6 (by decide)).trans (W1_arg6 m ρ c)
theorem W2_arg7 : W2 (F := Ideal) m ρ c (Proc.devRef .tc main_arg7) = (m ((c.tc : Thread nD τ).loc main_arg7)) :=
  (W2_of_ne m ρ c main_arg7 (by decide)).trans (W1_arg7 m ρ c)
theorem W2_arg8 : W2 (F := Ideal) m ρ c (Proc.devRef .tc main_arg8) = (m ((c.tc : Thread nD τ).loc main_arg8)) :=
  (W2_of_ne m ρ c main_arg8 (by decide)).trans (W1_arg8 m ρ c)
theorem W2_arg9 : W2 (F := Ideal) m ρ c (Proc.devRef .tc main_arg9) = (m ((c.tc : Thread nD τ).loc main_arg9)) :=
  (W2_of_ne m ρ c main_arg9 (by decide)).trans (W1_arg9 m ρ c)
theorem W2_arg10 : W2 (F := Ideal) m ρ c (Proc.devRef .tc main_arg10) = (m ((c.tc : Thread nD τ).loc main_arg10)) :=
  (W2_of_ne m ρ c main_arg10 (by decide)).trans (W1_arg10 m ρ c)
theorem W2_v22 (R0 : Region0) : W2 (F := Ideal) m ρ c (Proc.devRef .tc main_v22) = feat1 m c := by
  have e := (W2_arr (F := Ideal) m ρ c 5).trans (R0 (V1 m ρ) c)
  dsimp only [V1] at e
  rw [W1_v21, W1_arg0, W1_arg2, W1_arg3, W1_arg4] at e
  exact e

/-! ## After the second host stretch -/

set_option maxHeartbeats 1000000 in
theorem W3_v34 (R0 : Region0) : W3 (F := Ideal) m ρ c (Proc.devRef .tc main_v34) = Agg.agg256 (F := Ideal) (srcRow m c) (dstRow m c) (degCol m c) (feat1 m c) := by
  have e : W3 (F := Ideal) m ρ c (Proc.devRef .tc main_v34) = Agg.agg256 (F := Ideal) (W2 (F := Ideal) m ρ c (Proc.devRef .tc main_v1)) (W2 (F := Ideal) m ρ c (Proc.devRef .tc main_v3)) (W2 (F := Ideal) m ρ c (Proc.devRef .tc main_v9)) (W2 (F := Ideal) m ρ c (Proc.devRef .tc main_v22)) := by
    show StableHlo.after hostOps1 (W2 (F := Ideal) m ρ c) (Proc.devRef .tc main_v34) = _
    after_results_simp <;> rfl
  rw [W2_v1, W2_v3, W2_v9, W2_v22 m ρ c R0] at e
  exact e
theorem W3_v1 : W3 (F := Ideal) m ρ c (Proc.devRef .tc main_v1) = srcRow m c :=
  (show StableHlo.after hostOps1 (W2 (F := Ideal) m ρ c) (Proc.devRef .tc main_v1) = W2 (F := Ideal) m ρ c (Proc.devRef .tc main_v1) by after_results <;> rfl).trans (W2_v1 m ρ c)
theorem W3_v3 : W3 (F := Ideal) m ρ c (Proc.devRef .tc main_v3) = dstRow m c :=
  (show StableHlo.after hostOps1 (W2 (F := Ideal) m ρ c) (Proc.devRef .tc main_v3) = W2 (F := Ideal) m ρ c (Proc.devRef .tc main_v3) by after_results <;> rfl).trans (W2_v3 m ρ c)
theorem W3_v9 : W3 (F := Ideal) m ρ c (Proc.devRef .tc main_v9) = degCol m c :=
  (show StableHlo.after hostOps1 (W2 (F := Ideal) m ρ c) (Proc.devRef .tc main_v9) = W2 (F := Ideal) m ρ c (Proc.devRef .tc main_v9) by after_results <;> rfl).trans (W2_v9 m ρ c)
theorem W3_arg5 : W3 (F := Ideal) m ρ c (Proc.devRef .tc main_arg5) = (m ((c.tc : Thread nD τ).loc main_arg5)) :=
  (show StableHlo.after hostOps1 (W2 (F := Ideal) m ρ c) (Proc.devRef .tc main_arg5) = W2 (F := Ideal) m ρ c (Proc.devRef .tc main_arg5) by after_results <;> rfl).trans (W2_arg5 m ρ c)
theorem W3_arg6 : W3 (F := Ideal) m ρ c (Proc.devRef .tc main_arg6) = (m ((c.tc : Thread nD τ).loc main_arg6)) :=
  (show StableHlo.after hostOps1 (W2 (F := Ideal) m ρ c) (Proc.devRef .tc main_arg6) = W2 (F := Ideal) m ρ c (Proc.devRef .tc main_arg6) by after_results <;> rfl).trans (W2_arg6 m ρ c)
theorem W3_arg7 : W3 (F := Ideal) m ρ c (Proc.devRef .tc main_arg7) = (m ((c.tc : Thread nD τ).loc main_arg7)) :=
  (show StableHlo.after hostOps1 (W2 (F := Ideal) m ρ c) (Proc.devRef .tc main_arg7) = W2 (F := Ideal) m ρ c (Proc.devRef .tc main_arg7) by after_results <;> rfl).trans (W2_arg7 m ρ c)
theorem W3_arg8 : W3 (F := Ideal) m ρ c (Proc.devRef .tc main_arg8) = (m ((c.tc : Thread nD τ).loc main_arg8)) :=
  (show StableHlo.after hostOps1 (W2 (F := Ideal) m ρ c) (Proc.devRef .tc main_arg8) = W2 (F := Ideal) m ρ c (Proc.devRef .tc main_arg8) by after_results <;> rfl).trans (W2_arg8 m ρ c)
theorem W3_arg9 : W3 (F := Ideal) m ρ c (Proc.devRef .tc main_arg9) = (m ((c.tc : Thread nD τ).loc main_arg9)) :=
  (show StableHlo.after hostOps1 (W2 (F := Ideal) m ρ c) (Proc.devRef .tc main_arg9) = W2 (F := Ideal) m ρ c (Proc.devRef .tc main_arg9) by after_results <;> rfl).trans (W2_arg9 m ρ c)
theorem W3_arg10 : W3 (F := Ideal) m ρ c (Proc.devRef .tc main_arg10) = (m ((c.tc : Thread nD τ).loc main_arg10)) :=
  (show StableHlo.after hostOps1 (W2 (F := Ideal) m ρ c) (Proc.devRef .tc main_arg10) = W2 (F := Ideal) m ρ c (Proc.devRef .tc main_arg10) by after_results <;> rfl).trans (W2_arg10 m ρ c)
theorem W3_v22 (R0 : Region0) : W3 (F := Ideal) m ρ c (Proc.devRef .tc main_v22) = feat1 m c :=
  (show StableHlo.after hostOps1 (W2 (F := Ideal) m ρ c) (Proc.devRef .tc main_v22) = W2 (F := Ideal) m ρ c (Proc.devRef .tc main_v22) by after_results <;> rfl).trans (W2_v22 m ρ c R0)

/-! ## After the second region -/

theorem W4_v1 : W4 (F := Ideal) m ρ c (Proc.devRef .tc main_v1) = srcRow m c :=
  (W4_of_ne m ρ c main_v1 (by decide)).trans (W3_v1 m ρ c)
theorem W4_v3 : W4 (F := Ideal) m ρ c (Proc.devRef .tc main_v3) = dstRow m c :=
  (W4_of_ne m ρ c main_v3 (by decide)).trans (W3_v3 m ρ c)
theorem W4_v9 : W4 (F := Ideal) m ρ c (Proc.devRef .tc main_v9) = degCol m c :=
  (W4_of_ne m ρ c main_v9 (by decide)).trans (W3_v9 m ρ c)
theorem W4_arg8 : W4 (F := Ideal) m ρ c (Proc.devRef .tc main_arg8) = (m ((c.tc : Thread nD τ).loc main_arg8)) :=
  (W4_of_ne m ρ c main_arg8 (by decide)).trans (W3_arg8 m ρ c)
theorem W4_arg9 : W4 (F := Ideal) m ρ c (Proc.devRef .tc main_arg9) = (m ((c.tc : Thread nD τ).loc main_arg9)) :=
  (W4_of_ne m ρ c main_arg9 (by decide)).trans (W3_arg9 m ρ c)
theorem W4_arg10 : W4 (F := Ideal) m ρ c (Proc.devRef .tc main_arg10) = (m ((c.tc : Thread nD τ).loc main_arg10)) :=
  (W4_of_ne m ρ c main_arg10 (by decide)).trans (W3_arg10 m ρ c)
theorem W4_v35 (R0 : Region0) (R1 : Region1) : W4 (F := Ideal) m ρ c (Proc.devRef .tc main_v35) = feat2 m c := by
  have e := (W4_arr (F := Ideal) m ρ c 5).trans (R1 (V3 m ρ) c)
  dsimp only [V3] at e
  rw [W3_v34 m ρ c R0, W3_v22 m ρ c R0, W3_arg5, W3_arg6, W3_arg7] at e
  exact e

/-! ## After the third host stretch -/

set_option maxHeartbeats 1000000 in
theorem W5_v47 (R0 : Region0) (R1 : Region1) : W5 (F := Ideal) m ρ c (Proc.devRef .tc main_v47) = Agg.agg256 (F := Ideal) (srcRow m c) (dstRow m c) (degCol m c) (feat2 m c) := by
  have e : W5 (F := Ideal) m ρ c (Proc.devRef .tc main_v47) = Agg.agg256 (F := Ideal) (W4 (F := Ideal) m ρ c (Proc.devRef .tc main_v1)) (W4 (F := Ideal) m ρ c (Proc.devRef .tc main_v3)) (W4 (F := Ideal) m ρ c (Proc.devRef .tc main_v9)) (W4 (F := Ideal) m ρ c (Proc.devRef .tc main_v35)) := by
    show StableHlo.after hostOps2 (W4 (F := Ideal) m ρ c) (Proc.devRef .tc main_v47) = _
    after_results_simp <;> rfl
  rw [W4_v1, W4_v3, W4_v9, W4_v35 m ρ c R0 R1] at e
  exact e
theorem W5_arg8 : W5 (F := Ideal) m ρ c (Proc.devRef .tc main_arg8) = (m ((c.tc : Thread nD τ).loc main_arg8)) :=
  (show StableHlo.after hostOps2 (W4 (F := Ideal) m ρ c) (Proc.devRef .tc main_arg8) = W4 (F := Ideal) m ρ c (Proc.devRef .tc main_arg8) by after_results <;> rfl).trans (W4_arg8 m ρ c)
theorem W5_arg9 : W5 (F := Ideal) m ρ c (Proc.devRef .tc main_arg9) = (m ((c.tc : Thread nD τ).loc main_arg9)) :=
  (show StableHlo.after hostOps2 (W4 (F := Ideal) m ρ c) (Proc.devRef .tc main_arg9) = W4 (F := Ideal) m ρ c (Proc.devRef .tc main_arg9) by after_results <;> rfl).trans (W4_arg9 m ρ c)
theorem W5_arg10 : W5 (F := Ideal) m ρ c (Proc.devRef .tc main_arg10) = (m ((c.tc : Thread nD τ).loc main_arg10)) :=
  (show StableHlo.after hostOps2 (W4 (F := Ideal) m ρ c) (Proc.devRef .tc main_arg10) = W4 (F := Ideal) m ρ c (Proc.devRef .tc main_arg10) by after_results <;> rfl).trans (W4_arg10 m ρ c)
theorem W5_v35 (R0 : Region0) (R1 : Region1) : W5 (F := Ideal) m ρ c (Proc.devRef .tc main_v35) = feat2 m c :=
  (show StableHlo.after hostOps2 (W4 (F := Ideal) m ρ c) (Proc.devRef .tc main_v35) = W4 (F := Ideal) m ρ c (Proc.devRef .tc main_v35) by after_results <;> rfl).trans (W4_v35 m ρ c R0 R1)

/-! ## The result -/

/-- The result array at the last boundary is three stacked layers over the mean aggregation of the launched arguments. -/
theorem result_eq (R0 : Region0) (R1 : Region1) (R2 : Region2) :
    W6 (F := Ideal) m ρ c (Proc.devRef .tc main_v48)
      = Cert.Sage.net (N := 50000) (K₀ := 128) (M := 256)
          (Agg.agg128 (F := Ideal) (srcRow m c) (dstRow m c) (degCol m c)) (Agg.agg256 (F := Ideal) (srcRow m c) (dstRow m c) (degCol m c))
          (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have e := (W6_arr (F := Ideal) m ρ c 5).trans (R2 (V5 m ρ) c)
  dsimp only [V5] at e
  rw [W5_v47 m ρ c R0 R1, W5_v35 m ρ c R0 R1, W5_arg8, W5_arg9, W5_arg10] at e
  exact e

end Cert.KernelIdeal.Chain

end
-- ==== Proof.KernelLayer0.lean ====
/-
  The output array of pipelined region 0, as one function of the arrays the region finds at its entry.

  The region walks 25 grid points. At point t it holds rows 2000·t … 2000·t + 1999 of the aggregated features and
  of the root features (128 columns each), both weight matrices (128 × 256) and the bias row (256) whole, and stores
  the 2000 × 256 block whose entry (p, q) is

      max ( (∑ₖ agg(p,k)·Wl(k,q) + ∑ₖ h(p,k)·Wr(k,q)) + b(q), 0 )

  — the narrowing casts are the identity on the extended reals, and a product accumulated onto the zero matrix is
  the plain sum over the contraction index. The block is written back to rows 2000·t … of the output. With the
  bias moved in front of the second product (the same extended real: addition is commutative and associative) this
  is entry (2000·t + p, q) of the dense layer `Cert.Sage.dense` of the entry arrays; the 25 blocks tile the 50000
  rows, so the output array ends as that layer (`final0`).
-/
import proofs.«163233_j8615704396355_1_alg».proof.Proof.Gen.KernelIdeal.Frame
import proofs.«163233_j8615704396355_1_alg».proof.Proof.LibSageDense
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.ValueIdx
open Idealize.ShloMosaic.Pipeline (Dat)

/-- The left operand's row coordinate at output entry j is j's row. -/
theorem lhs_row (j : S2000x256.Idx) (k : dot_S2000x128_S128x256_S2000x256_1_0_0_1_n_n.contr.Idx) : (dot_S2000x128_S128x256_S2000x256_1_0_0_1_n_n.lhsIdx j k 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- Its column coordinate is the contraction position. -/
theorem lhs_col (j : S2000x256.Idx) (k : dot_S2000x128_S128x256_S2000x256_1_0_0_1_n_n.contr.Idx) : (dot_S2000x128_S128x256_S2000x256_1_0_0_1_n_n.lhsIdx j k 1).val = (k ⟨0, by decide⟩).val :=
  dot_S2000x128_S128x256_S2000x256_1_0_0_1_n_n.lhsIdx_val_of_single rfl j k
/-- The right operand's row coordinate is the contraction position. -/
theorem rhs_row (j : S2000x256.Idx) (k : dot_S2000x128_S128x256_S2000x256_1_0_0_1_n_n.contr.Idx) : (dot_S2000x128_S128x256_S2000x256_1_0_0_1_n_n.rhsIdx j k 0).val = (k ⟨0, by decide⟩).val :=
  dot_S2000x128_S128x256_S2000x256_1_0_0_1_n_n.rhsIdx_val_of_single rfl j k
/-- Its column coordinate is j's column. -/
theorem rhs_col (j : S2000x256.Idx) (k : dot_S2000x128_S128x256_S2000x256_1_0_0_1_n_n.contr.Idx) : (dot_S2000x128_S128x256_S2000x256_1_0_0_1_n_n.rhsIdx j k 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- One matrix product of the body at entry (p, q): the zero accumulator adds nothing, and the contraction runs
    over the 128 columns of the left block against the 128 rows of the weights. -/
theorem product_at (x : FVec Ideal S2000x128 .bf16) (w : FVec Ideal S128x256 .bf16) (p : Fin 2000) (q : Fin 256) :
    matmul (F := Ideal) dot_S2000x128_S128x256_S2000x256_1_0_0_1_n_n none x w (constant (F := Ideal) S2000x256 .f32 0x00000000#32) (ix2 p q)
      = ∑ k : Fin 128, x (ix2 p k) * w (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_row _ _).trans hk
    | ⟨1, _⟩ => exact rhs_col _ _)
  rw [el, er]

/-- The body's stored value at entry (p, q) of a block: the two products summed, the bias row added, clamped at 0. -/
theorem payload_at (x0 x1 : Vec Ideal S2000x128 .f32) (x2 x4 : Vec Ideal S128x256 .f32) (x3 : Vec Ideal S256 .f32)
    (p : Fin 2000) (q : Fin 256) :
    k0_pay1 (F := Ideal) x0 x1 x2 x4 x3 (ix2 p q)
      = max (((∑ k : Fin 128, x0 (ix2 p k) * x2 (ix2 k q)) + ∑ k : Fin 128, x1 (ix2 p k) * x4 (ix2 k q)) + x3 (ix1 q)) 0 := by
  unfold k0_pay1
  rw [maximumf_apply, addf_apply, addf_apply, product_at, product_at, broadcast_apply]
  simp only [truncf_apply, shapeCast_self]
  rw [broadcastTo_1b_ab_apply, shapeCast_a_1a_apply]
  congr 1
  exact Ideal.ofBits_zero_f32

theorem zero_offsets : (![0, 0] : Fin 2 → Nat) = fun _ => 0 := funext fun a => by fin_cases a <;> rfl
theorem zero_offset : (![0] : Fin 1 → Nat) = fun _ => 0 := funext fun a => by fin_cases a <;> rfl

/-- The windows' index maps, decided over the 25 grid points: the two feature windows and the output move down one
    block of rows per point; the weights and the bias stay at block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, q) of a stored block whose rows are rows P, P+1, … of the arrays: the layer's entry (P, q). The body
    adds the bias after both products, the layer before the second; the two sums are one extended real. -/
theorem block_entry (A H : S50000x128.Idx → EReal) (Wl Wr : S128x256.Idx → EReal) (b : S256.Idx → EReal)
    (x0 x1 : Vec Ideal S2000x128 .f32) (x2 x4 : Vec Ideal S128x256 .f32) (x3 : Vec Ideal S256 .f32)
    (p : Fin 2000) (q : Fin 256) (P : Fin 50000)
    (h0 : ∀ k : Fin 128, x0 (ix2 p k) = A (ix2 P k)) (h1 : ∀ k : Fin 128, x1 (ix2 p k) = H (ix2 P k))
    (h2 : x2 = Wl) (h4 : x4 = Wr) (h3 : x3 = b) :
    k0_pay1 (F := Ideal) x0 x1 x2 x4 x3 (ix2 p q)
      = Cert.Sage.dense (N := 50000) (K := 128) (M := 256) true A H Wl b Wr (ix2 P q) := by
  subst h2 h4 h3
  rw [payload_at, Cert.Sage.dense_apply]
  simp only [Cert.Sage.denseAt, if_true, h0, h1]
  rw [Cert.Sage.preAt_bias_last]

/-- WHAT POINT t WRITES BACK is block t of the layer's whole array: the stored block's entry (p, q) is the layer's
    entry (2000·t + p, q), the feature blocks being rows 2000·t … 2000·t + 1999 of their arrays and the weights
    and bias read whole. -/
theorem flushed_eq (V : (c : Dev nD) → (b : Ref sig .tc) → Buf (Elt Ideal) ((c : Thread nD τ).loc b)) (c : Dev nD) (t : Fin cfg0.N) :
    (dat0 (F := Ideal) V c).flushed 5 t
      = ((cfg0.win 5).blk t).view.read (Elt Ideal) (Cert.Sage.dense (N := 50000) (K := 128) (M := 256) true (V c main_v21) (V c main_arg0) (V c main_arg2) (V c main_arg3) (V c main_arg4)) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S128x256) zero_offsets, View.ld_unit_zero (S := S256) zero_offset]
  obtain ⟨e00, e01, e10, e11, e20, e21, e30, e40, e41, e50, e51⟩ := block_indices t
  have ht : t.val < 25 := Nat.lt_of_lt_of_eq t.isLt N_0
  funext j
  have hj0 : (j 0).val < 2000 := (j 0).isLt
  have hj1 : (j 1).val < 256 := (j 1).isLt
  have hrow : t.val * 2000 + (j 0).val < 50000 := by omega
  -- the index inside the block, and the array index under it
  have hy : (cfg0.win 5).xinj (grid0.coords t) j = ix2 (⟨(j 0).val, hj0⟩ : Fin 2000) (⟨(j 1).val, hj1⟩ : Fin 256) :=
    funext fun a => match a with | ⟨0, _⟩ => rfl | ⟨1, _⟩ => rfl
  have hemb : ((cfg0.win 5).blk t).view.emb j = ix2 (⟨t.val * 2000 + (j 0).val, hrow⟩ : Fin 50000) (⟨(j 1).val, hj1⟩ : Fin 256) := by
    funext a; apply Fin.ext
    match a with
    | ⟨0, _⟩ => show win0_5.index t (0 : Fin 2) * 2000 + 1 * (j 0).val = t.val * 2000 + (j 0).val; rw [e50]; omega
    | ⟨1, _⟩ => show win0_5.index t (1 : Fin 2) * 256 + 1 * (j 1).val = (j 1).val; rw [e51]; omega
  show k0_pay1 (F := Ideal) _ _ _ _ _ ((cfg0.win 5).xinj (grid0.coords t) j) = Cert.Sage.dense (N := 50000) (K := 128) (M := 256) true (V c main_v21) (V c main_arg0) (V c main_arg2) (V c main_arg3) (V c main_arg4) (((cfg0.win 5).blk t).view.emb j)
  rw [hy, hemb]
  refine block_entry _ _ _ _ _ _ _ _ _ _ _ _ _ (fun k => ?_) (fun k => ?_) ?_ ?_ ?_
  · -- the aggregated features' block: rows 2000·t … of the array
    show V c main_v21 (((cfg0.win 0).blk t).view.emb (ix2 (⟨(j 0).val, hj0⟩ : Fin 2000) k)) = V c main_v21 (ix2 (⟨t.val * 2000 + (j 0).val, hrow⟩ : Fin 50000) k)
    refine congrArg _ (funext fun a => Fin.ext ?_)
    match a with
    | ⟨0, _⟩ => show win0_0.index t (0 : Fin 2) * 2000 + 1 * (j 0).val = t.val * 2000 + (j 0).val; rw [e00]; omega
    | ⟨1, _⟩ => show win0_0.index t (1 : Fin 2) * 128 + 1 * k.val = k.val; rw [e01]; omega
  · -- the root features' block: the same rows
    show V c main_arg0 (((cfg0.win 1).blk t).view.emb (ix2 (⟨(j 0).val, hj0⟩ : Fin 2000) k)) = V c main_arg0 (ix2 (⟨t.val * 2000 + (j 0).val, hrow⟩ : Fin 50000) k)
    refine congrArg _ (funext fun a => Fin.ext ?_)
    match a with
    | ⟨0, _⟩ => show win0_1.index t (0 : Fin 2) * 2000 + 1 * (j 0).val = t.val * 2000 + (j 0).val; rw [e10]; omega
    | ⟨1, _⟩ => show win0_1.index t (1 : Fin 2) * 128 + 1 * k.val = k.val; rw [e11]; omega
  · -- the aggregated side's weights, whole
    funext y
    show V c main_arg2 (((cfg0.win 2).blk t).view.emb y) = V c main_arg2 y
    refine congrArg _ (funext fun a => Fin.ext ?_)
    match a with
    | ⟨0, _⟩ => show win0_2.index t (0 : Fin 2) * 128 + 1 * (y 0).val = (y 0).val; rw [e20]; omega
    | ⟨1, _⟩ => show win0_2.index t (1 : Fin 2) * 256 + 1 * (y 1).val = (y 1).val; rw [e21]; omega
  · -- the root side's weights, whole
    funext y
    show V c main_arg4 (((cfg0.win 4).blk t).view.emb y) = V c main_arg4 y
    refine congrArg _ (funext fun a => Fin.ext ?_)
    match a with
    | ⟨0, _⟩ => show win0_4.index t (0 : Fin 2) * 128 + 1 * (y 0).val = (y 0).val; rw [e40]; omega
    | ⟨1, _⟩ => show win0_4.index t (1 : Fin 2) * 256 + 1 * (y 1).val = (y 1).val; rw [e41]; omega
  · -- the bias row, whole
    funext y
    show V c main_arg3 (((cfg0.win 3).blk t).view.emb y) = V c main_arg3 y
    refine congrArg _ (funext fun a => Fin.ext ?_)
    match a with
    | ⟨0, _⟩ => show win0_3.index t (0 : Fin 1) * 256 + 1 * (y 0).val = (y 0).val; rw [e30]; omega

/-- An index of the array is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v22).slice (win0_5.rect t)).set ↔ _
  rw [View.set_slice_whole, Rect.mem_set_unit]
  exact Iff.rfl

/-- The 25 blocks of 2000 rows tile the 50000 rows: row r is in the block of point r / 2000. -/
theorem rows_covered (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, Nat.lt_of_lt_of_eq (by omega) N_0.symm⟩, rfl⟩
  obtain ⟨-, -, -, -, -, -, -, -, -, e50, e51⟩ := block_indices t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e50, ht]; omega
  | ⟨1, _⟩ => show win0_5.index t (1 : Fin 2) * 256 ≤ (i 1).val ∧ (i 1).val < win0_5.index t (1 : Fin 2) * 256 + 256; rw [e51]; omega

/-- THE OUTPUT ARRAY after the region's 25 points: the layer of the arrays the region finds at its entry. -/
theorem final0 (V : (c : Dev nD) → (b : Ref sig .tc) → Buf (Elt Ideal) ((c : Thread nD τ).loc b)) (c : Dev nD) :
    (dat0 (F := Ideal) V c).arrAt 5 cfg0.N = Cert.Sage.dense (N := 50000) (K := 128) (M := 256) true (V c main_v21) (V c main_arg0) (V c main_arg2) (V c main_arg3) (V c main_arg4) :=
  (dat0 (F := Ideal) V c).arrAt_eq_of_cover 5 _ (fun t _ => flushed_eq V c t) rows_covered

end Cert.KernelIdeal.Layer0

end
-- ==== Proof.KernelLayer1.lean ====
/-
  The output array of pipelined region 1, as one function of the arrays the region finds at its entry.

  The region walks 25 grid points. At point t it holds rows 2000·t … 2000·t + 1999 of the aggregated features and
  of the root features (256 columns each), both weight matrices (256 × 256) and the bias row (256) whole, and stores
  the 2000 × 256 block whose entry (p, q) is

      max ( (∑ₖ agg(p,k)·Wl(k,q) + ∑ₖ h(p,k)·Wr(k,q)) + b(q), 0 )

  — the narrowing casts are the identity on the extended reals, and a product accumulated onto the zero matrix is
  the plain sum over the contraction index. The block is written back to rows 2000·t … of the output. With the
  bias moved in front of the second product (the same extended real: addition is commutative and associative) this
  is entry (2000·t + p, q) of the dense layer `Cert.Sage.dense` of the entry arrays; the 25 blocks tile the 50000
  rows, so the output array ends as that layer (`final1`).
-/
import proofs.«163233_j8615704396355_1_alg».proof.Proof.Gen.KernelIdeal.Frame
import proofs.«163233_j8615704396355_1_alg».proof.Proof.LibSageDense
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

/-- The left operand's row coordinate at output entry j is j's row. -/
theorem lhs_row (j : S2000x256.Idx) (k : dot_S2000x256_S256x256_S2000x256_1_0_0_1_n_n.contr.Idx) : (dot_S2000x256_S256x256_S2000x256_1_0_0_1_n_n.lhsIdx j k 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- Its column coordinate is the contraction position. -/
theorem lhs_col (j : S2000x256.Idx) (k : dot_S2000x256_S256x256_S2000x256_1_0_0_1_n_n.contr.Idx) : (dot_S2000x256_S256x256_S2000x256_1_0_0_1_n_n.lhsIdx j k 1).val = (k ⟨0, by decide⟩).val :=
  dot_S2000x256_S256x256_S2000x256_1_0_0_1_n_n.lhsIdx_val_of_single rfl j k
/-- The right operand's row coordinate is the contraction position. -/
theorem rhs_row (j : S2000x256.Idx) (k : dot_S2000x256_S256x256_S2000x256_1_0_0_1_n_n.contr.Idx) : (dot_S2000x256_S256x256_S2000x256_1_0_0_1_n_n.rhsIdx j k 0).val = (k ⟨0, by decide⟩).val :=
  dot_S2000x256_S256x256_S2000x256_1_0_0_1_n_n.rhsIdx_val_of_single rfl j k
/-- Its column coordinate is j's column. -/
theorem rhs_col (j : S2000x256.Idx) (k : dot_S2000x256_S256x256_S2000x256_1_0_0_1_n_n.contr.Idx) : (dot_S2000x256_S256x256_S2000x256_1_0_0_1_n_n.rhsIdx j k 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- One matrix product of the body at entry (p, q): the zero accumulator adds nothing, and the contraction runs
    over the 256 columns of the left block against the 256 rows of the weights. -/
theorem product_at (x : FVec Ideal S2000x256 .bf16) (w : FVec Ideal S256x256 .bf16) (p : Fin 2000) (q : Fin 256) :
    matmul (F := Ideal) dot_S2000x256_S256x256_S2000x256_1_0_0_1_n_n none x w (constant (F := Ideal) S2000x256 .f32 0x00000000#32) (ix2 p q)
      = ∑ k : Fin 256, x (ix2 p k) * w (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_row _ _
    | ⟨1, _⟩ => exact (lhs_col _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_row _ _).trans hk
    | ⟨1, _⟩ => exact rhs_col _ _)
  rw [el, er]

/-- The body's stored value at entry (p, q) of a block: the two products summed, the bias row added, clamped at 0. -/
theorem payload_at (x0 x1 : Vec Ideal S2000x256 .f32) (x2 x4 : Vec Ideal S256x256 .f32) (x3 : Vec Ideal S256 .f32)
    (p : Fin 2000) (q : Fin 256) :
    k1_pay1 (F := Ideal) x0 x1 x2 x4 x3 (ix2 p q)
      = max (((∑ k : Fin 256, x0 (ix2 p k) * x2 (ix2 k q)) + ∑ k : Fin 256, x1 (ix2 p k) * x4 (ix2 k q)) + x3 (ix1 q)) 0 := by
  unfold k1_pay1
  rw [maximumf_apply, addf_apply, addf_apply, product_at, product_at, broadcast_apply]
  simp only [truncf_apply, shapeCast_self]
  rw [broadcastTo_1b_ab_apply, shapeCast_a_1a_apply]
  congr 1
  exact Ideal.ofBits_zero_f32

theorem zero_offsets : (![0, 0] : Fin 2 → Nat) = fun _ => 0 := funext fun a => by fin_cases a <;> rfl
theorem zero_offset : (![0] : Fin 1 → Nat) = fun _ => 0 := funext fun a => by fin_cases a <;> rfl

/-- The windows' index maps, decided over the 25 grid points: the two feature windows and the output move down one
    block of rows per point; the weights and the bias stay at block 0. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, q) of a stored block whose rows are rows P, P+1, … of the arrays: the layer's entry (P, q). The body
    adds the bias after both products, the layer before the second; the two sums are one extended real. -/
theorem block_entry (A H : S50000x256.Idx → EReal) (Wl Wr : S256x256.Idx → EReal) (b : S256.Idx → EReal)
    (x0 x1 : Vec Ideal S2000x256 .f32) (x2 x4 : Vec Ideal S256x256 .f32) (x3 : Vec Ideal S256 .f32)
    (p : Fin 2000) (q : Fin 256) (P : Fin 50000)
    (h0 : ∀ k : Fin 256, x0 (ix2 p k) = A (ix2 P k)) (h1 : ∀ k : Fin 256, x1 (ix2 p k) = H (ix2 P k))
    (h2 : x2 = Wl) (h4 : x4 = Wr) (h3 : x3 = b) :
    k1_pay1 (F := Ideal) x0 x1 x2 x4 x3 (ix2 p q)
      = Cert.Sage.dense (N := 50000) (K := 256) (M := 256) true A H Wl b Wr (ix2 P q) := by
  subst h2 h4 h3
  rw [payload_at, Cert.Sage.dense_apply]
  simp only [Cert.Sage.denseAt, if_true, h0, h1]
  rw [Cert.Sage.preAt_bias_last]

/-- WHAT POINT t WRITES BACK is block t of the layer's whole array: the stored block's entry (p, q) is the layer's
    entry (2000·t + p, q), the feature blocks being rows 2000·t … 2000·t + 1999 of their arrays and the weights
    and bias read whole. -/
theorem flushed_eq (V : (c : Dev nD) → (b : Ref sig .tc) → Buf (Elt Ideal) ((c : Thread nD τ).loc b)) (c : Dev nD) (t : Fin cfg1.N) :
    (dat1 (F := Ideal) V c).flushed 5 t
      = ((cfg1.win 5).blk t).view.read (Elt Ideal) (Cert.Sage.dense (N := 50000) (K := 256) (M := 256) true (V c main_v34) (V c main_v22) (V c main_arg5) (V c main_arg6) (V c main_arg7)) := by
  show (cfg1.win 5).cut (grid1.coords t) ((dat1 V c).after 5 t) = _
  rw [after1_5]
  unfold out1_5
  rw [View.canon_unit_zero zero_offsets]
  simp only [View.ld_unit_zero (S := S2000x256) zero_offsets, View.ld_unit_zero (S := S2000x256) zero_offsets, View.ld_unit_zero (S := S256x256) zero_offsets, View.ld_unit_zero (S := S256) zero_offset]
  obtain ⟨e00, e01, e10, e11, e20, e21, e30, e40, e41, e50, e51⟩ := block_indices t
  have ht : t.val < 25 := Nat.lt_of_lt_of_eq t.isLt N_1
  funext j
  have hj0 : (j 0).val < 2000 := (j 0).isLt
  have hj1 : (j 1).val < 256 := (j 1).isLt
  have hrow : t.val * 2000 + (j 0).val < 50000 := by omega
  -- the index inside the block, and the array index under it
  have hy : (cfg1.win 5).xinj (grid1.coords t) j = ix2 (⟨(j 0).val, hj0⟩ : Fin 2000) (⟨(j 1).val, hj1⟩ : Fin 256) :=
    funext fun a => match a with | ⟨0, _⟩ => rfl | ⟨1, _⟩ => rfl
  have hemb : ((cfg1.win 5).blk t).view.emb j = ix2 (⟨t.val * 2000 + (j 0).val, hrow⟩ : Fin 50000) (⟨(j 1).val, hj1⟩ : Fin 256) := by
    funext a; apply Fin.ext
    match a with
    | ⟨0, _⟩ => show win1_5.index t (0 : Fin 2) * 2000 + 1 * (j 0).val = t.val * 2000 + (j 0).val; rw [e50]; omega
    | ⟨1, _⟩ => show win1_5.index t (1 : Fin 2) * 256 + 1 * (j 1).val = (j 1).val; rw [e51]; omega
  show k1_pay1 (F := Ideal) _ _ _ _ _ ((cfg1.win 5).xinj (grid1.coords t) j) = Cert.Sage.dense (N := 50000) (K := 256) (M := 256) true (V c main_v34) (V c main_v22) (V c main_arg5) (V c main_arg6) (V c main_arg7) (((cfg1.win 5).blk t).view.emb j)
  rw [hy, hemb]
  refine block_entry _ _ _ _ _ _ _ _ _ _ _ _ _ (fun k => ?_) (fun k => ?_) ?_ ?_ ?_
  · -- the aggregated features' block: rows 2000·t … of the array
    show V c main_v34 (((cfg1.win 0).blk t).view.emb (ix2 (⟨(j 0).val, hj0⟩ : Fin 2000) k)) = V c main_v34 (ix2 (⟨t.val * 2000 + (j 0).val, hrow⟩ : Fin 50000) k)
    refine congrArg _ (funext fun a => Fin.ext ?_)
    match a with
    | ⟨0, _⟩ => show win1_0.index t (0 : Fin 2) * 2000 + 1 * (j 0).val = t.val * 2000 + (j 0).val; rw [e00]; omega
    | ⟨1, _⟩ => show win1_0.index t (1 : Fin 2) * 256 + 1 * k.val = k.val; rw [e01]; omega
  · -- the root features' block: the same rows
    show V c main_v22 (((cfg1.win 1).blk t).view.emb (ix2 (⟨(j 0).val, hj0⟩ : Fin 2000) k)) = V c main_v22 (ix2 (⟨t.val * 2000 + (j 0).val, hrow⟩ : Fin 50000) k)
    refine congrArg _ (funext fun a => Fin.ext ?_)
    match a with
    | ⟨0, _⟩ => show win1_1.index t (0 : Fin 2) * 2000 + 1 * (j 0).val = t.val * 2000 + (j 0).val; rw [e10]; omega
    | ⟨1, _⟩ => show win1_1.index t (1 : Fin 2) * 256 + 1 * k.val = k.val; rw [e11]; omega
  · -- the aggregated side's weights, whole
    funext y
    show V c main_arg5 (((cfg1.win 2).blk t).view.emb y) = V c main_arg5 y
    refine congrArg _ (funext fun a => Fin.ext ?_)
    match a with
    | ⟨0, _⟩ => show win1_2.index t (0 : Fin 2) * 256 + 1 * (y 0).val = (y 0).val; rw [e20]; omega
    | ⟨1, _⟩ => show win1_2.index t (1 : Fin 2) * 256 + 1 * (y 1).val = (y 1).val; rw [e21]; omega
  · -- the root side's weights, whole
    funext y
    show V c main_arg7 (((cfg1.win 4).blk t).view.emb y) = V c main_arg7 y
    refine congrArg _ (funext fun a => Fin.ext ?_)
    match a with
    | ⟨0, _⟩ => show win1_4.index t (0 : Fin 2) * 256 + 1 * (y 0).val = (y 0).val; rw [e40]; omega
    | ⟨1, _⟩ => show win1_4.index t (1 : Fin 2) * 256 + 1 * (y 1).val = (y 1).val; rw [e41]; omega
  · -- the bias row, whole
    funext y
    show V c main_arg6 (((cfg1.win 3).blk t).view.emb y) = V c main_arg6 y
    refine congrArg _ (funext fun a => Fin.ext ?_)
    match a with
    | ⟨0, _⟩ => show win1_3.index t (0 : Fin 1) * 256 + 1 * (y 0).val = (y 0).val; rw [e30]; omega

/-- An index of the array is in point t's block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v35).slice (win1_5.rect t)).set ↔ _
  rw [View.set_slice_whole, Rect.mem_set_unit]
  exact Iff.rfl

/-- The 25 blocks of 2000 rows tile the 50000 rows: row r is in the block of point r / 2000. -/
theorem rows_covered (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, Nat.lt_of_lt_of_eq (by omega) N_1.symm⟩, rfl⟩
  obtain ⟨-, -, -, -, -, -, -, -, -, e50, e51⟩ := block_indices t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; rw [e50, ht]; omega
  | ⟨1, _⟩ => show win1_5.index t (1 : Fin 2) * 256 ≤ (i 1).val ∧ (i 1).val < win1_5.index t (1 : Fin 2) * 256 + 256; rw [e51]; omega

/-- THE OUTPUT ARRAY after the region's 25 points: the layer of the arrays the region finds at its entry. -/
theorem final1 (V : (c : Dev nD) → (b : Ref sig .tc) → Buf (Elt Ideal) ((c : Thread nD τ).loc b)) (c : Dev nD) :
    (dat1 (F := Ideal) V c).arrAt 5 cfg1.N = Cert.Sage.dense (N := 50000) (K := 256) (M := 256) true (V c main_v34) (V c main_v22) (V c main_arg5) (V c main_arg6) (V c main_arg7) :=
  (dat1 (F := Ideal) V c).arrAt_eq_of_cover 5 _ (fun t _ => flushed_eq V c t) rows_covered

end Cert.KernelIdeal.Layer1

end
-- ==== Proof.KernelLayer2.lean ====
/-
  The output array of pipelined region 2, as one function of the arrays the region finds at its entry.

  The region walks 25 grid points. At point t it holds rows 2000·t … 2000·t + 1999 of the aggregated features and
  of the root features (256 columns each), both weight matrices (256 × 256) and the bias row (256) whole, and stores
  the 2000 × 256 block whose entry (p, q) is

      (∑ₖ agg(p,k)·Wl(k,q) + ∑ₖ h(p,k)·Wr(k,q)) + b(q)

  — the narrowing casts are the identity on the extended reals, and a product accumulated onto the zero matrix is
  the plain sum over the contraction index. The block is written back to rows 2000·t … of the output. With the
  bias moved in front of the second product (the same extended real: addition is commutative and associative) this
  is entry (2000·t + p, q) of the dense layer `Cert.Sage.dense` of the entry arrays; the 25 blocks tile the 50000
  rows, so the output array ends as that layer (`final2`).
-/
import proofs.«163233_j8615704396355_1_alg».proof.Proof.Gen.KernelIdeal.Frame
import proofs.«163233_j8615704396355_1_alg».proof.Proof.LibSageDense
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

/-- The left operand's row coordinate at output entry j is j's row. -/
theorem lhs_row (j : S2000x256.Idx) (k : dot_S2000x256_S256x256_S2000x256_1_0_0_1_n_n.contr.Idx) : (dot_S2000x256_S256x256_S2000x256_1_0_0_1_n_n.lhsIdx j k 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- Its column coordinate is the contraction position. -/
theorem lhs_col (j : S2000x256.Idx) (k : dot_S2000x256_S256x256_S2000x256_1_0_0_1_n_n.contr.Idx) : (dot_S2000x256_S256x256_S2000x256_1_0_0_1_n_n.lhsIdx j k 1).val = (k ⟨0, by decide⟩).val :=
  dot_S2000x256_S256x256_S2000x256_1_0_0_1_n_n.lhsIdx_val_of_single rfl j k
/-- The right operand's row coordinate is the contraction position. -/
theorem rhs_row (j : S2000x256.Idx) (k : dot_S2000x256_S256x256_S2000x256_1_0_0_1_n_n.contr.Idx) : (dot_S2000x256_S256x256_S2000x256_1_0_0_1_n_n.rhsIdx j k 0).val = (k ⟨0, by decide⟩).val :=
  dot_S2000x256_S256x256_S2000x256_1_0_0_1_n_n.rhsIdx_val_of_single rfl j k
/-- Its column coordinate is j's column. -/
theorem rhs_col (j : S2000x256.Idx) (k : dot_S2000x256_S256x256_S2000x256_1_0_0_1_n_n.contr.Idx) : (dot_S2000x256_S256x256_S2000x256_1_0_0_1_n_n.rhsIdx j k 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- One matrix product of the body at entry (p, q): the zero accumulator adds nothing, and the contraction runs
    over the 256 columns of the left block against the 256 rows of the weights. -/
theorem product_at (x : FVec Ideal S2000x256 .bf16) (w : FVec Ideal S256x256 .bf16) (p : Fin 2000) (q : Fin 256) :
    matmul (F := Ideal) dot_S2000x256_S256x256_S2000x256_1_0_0_1_n_n none x w (constant (F := Ideal) S2000x256 .f32 0x00000000#32) (ix2 p q)
      = ∑ k : Fin 256, x (ix2 p k) * w (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_row _ _
    | ⟨1, _⟩ => exact (lhs_col _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_row _ _).trans hk
    | ⟨1, _⟩ => exact rhs_col _ _)
  rw [el, er]

/-- The body's stored value at entry (p, q) of a block: the two products summed, then the bias row added. -/
theorem payload_at (x0 x1 : Vec Ideal S2000x256 .f32) (x2 x4 : Vec Ideal S256x256 .f32) (x3 : Vec Ideal S256 .f32)
    (p : Fin 2000) (q : Fin 256) :
    k2_pay1 (F := Ideal) x0 x1 x2 x4 x3 (ix2 p q)
      = ((∑ k : Fin 256, x0 (ix2 p k) * x2 (ix2 k q)) + ∑ k : Fin 256, x1 (ix2 p k) * x4 (ix2 k q)) + x3 (ix1 q) := by
  unfold k2_pay1
  rw [addf_apply, addf_apply, product_at, product_at]
  simp only [truncf_apply, shapeCast_self]
  rw [broadcastTo_1b_ab_apply, shapeCast_a_1a_apply]

theorem zero_offsets : (![0, 0] : Fin 2 → Nat) = fun _ => 0 := funext fun a => by fin_cases a <;> rfl
theorem zero_offset : (![0] : Fin 1 → Nat) = fun _ => 0 := funext fun a => by fin_cases a <;> rfl

/-- The windows' index maps, decided over the 25 grid points: the two feature windows and the output move down one
    block of rows per point; the weights and the bias stay at block 0. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry (p, q) of a stored block whose rows are rows P, P+1, … of the arrays: the layer's entry (P, q). The body
    adds the bias after both products, the layer before the second; the two sums are one extended real. -/
theorem block_entry (A H : S50000x256.Idx → EReal) (Wl Wr : S256x256.Idx → EReal) (b : S256.Idx → EReal)
    (x0 x1 : Vec Ideal S2000x256 .f32) (x2 x4 : Vec Ideal S256x256 .f32) (x3 : Vec Ideal S256 .f32)
    (p : Fin 2000) (q : Fin 256) (P : Fin 50000)
    (h0 : ∀ k : Fin 256, x0 (ix2 p k) = A (ix2 P k)) (h1 : ∀ k : Fin 256, x1 (ix2 p k) = H (ix2 P k))
    (h2 : x2 = Wl) (h4 : x4 = Wr) (h3 : x3 = b) :
    k2_pay1 (F := Ideal) x0 x1 x2 x4 x3 (ix2 p q)
      = Cert.Sage.dense (N := 50000) (K := 256) (M := 256) false A H Wl b Wr (ix2 P q) := by
  subst h2 h4 h3
  rw [payload_at, Cert.Sage.dense_apply]
  simp only [Cert.Sage.denseAt, Bool.false_eq_true, if_false, h0, h1]
  rw [Cert.Sage.preAt_bias_last]

/-- WHAT POINT t WRITES BACK is block t of the layer's whole array: the stored block's entry (p, q) is the layer's
    entry (2000·t + p, q), the feature blocks being rows 2000·t … 2000·t + 1999 of their arrays and the weights
    and bias read whole. -/
theorem flushed_eq (V : (c : Dev nD) → (b : Ref sig .tc) → Buf (Elt Ideal) ((c : Thread nD τ).loc b)) (c : Dev nD) (t : Fin cfg2.N) :
    (dat2 (F := Ideal) V c).flushed 5 t
      = ((cfg2.win 5).blk t).view.read (Elt Ideal) (Cert.Sage.dense (N := 50000) (K := 256) (M := 256) false (V c main_v47) (V c main_v35) (V c main_arg8) (V c main_arg9) (V c main_arg10)) := by
  show (cfg2.win 5).cut (grid2.coords t) ((dat2 V c).after 5 t) = _
  rw [after2_5]
  unfold out2_5
  rw [View.canon_unit_zero zero_offsets]
  simp only [View.ld_unit_zero (S := S2000x256) zero_offsets, View.ld_unit_zero (S := S2000x256) zero_offsets, View.ld_unit_zero (S := S256x256) zero_offsets, View.ld_unit_zero (S := S256) zero_offset]
  obtain ⟨e00, e01, e10, e11, e20, e21, e30, e40, e41, e50, e51⟩ := block_indices t
  have ht : t.val < 25 := Nat.lt_of_lt_of_eq t.isLt N_2
  funext j
  have hj0 : (j 0).val < 2000 := (j 0).isLt
  have hj1 : (j 1).val < 256 := (j 1).isLt
  have hrow : t.val * 2000 + (j 0).val < 50000 := by omega
  -- the index inside the block, and the array index under it
  have hy : (cfg2.win 5).xinj (grid2.coords t) j = ix2 (⟨(j 0).val, hj0⟩ : Fin 2000) (⟨(j 1).val, hj1⟩ : Fin 256) :=
    funext fun a => match a with | ⟨0, _⟩ => rfl | ⟨1, _⟩ => rfl
  have hemb : ((cfg2.win 5).blk t).view.emb j = ix2 (⟨t.val * 2000 + (j 0).val, hrow⟩ : Fin 50000) (⟨(j 1).val, hj1⟩ : Fin 256) := by
    funext a; apply Fin.ext
    match a with
    | ⟨0, _⟩ => show win2_5.index t (0 : Fin 2) * 2000 + 1 * (j 0).val = t.val * 2000 + (j 0).val; rw [e50]; omega
    | ⟨1, _⟩ => show win2_5.index t (1 : Fin 2) * 256 + 1 * (j 1).val = (j 1).val; rw [e51]; omega
  show k2_pay1 (F := Ideal) _ _ _ _ _ ((cfg2.win 5).xinj (grid2.coords t) j) = Cert.Sage.dense (N := 50000) (K := 256) (M := 256) false (V c main_v47) (V c main_v35) (V c main_arg8) (V c main_arg9) (V c main_arg10) (((cfg2.win 5).blk t).view.emb j)
  rw [hy, hemb]
  refine block_entry _ _ _ _ _ _ _ _ _ _ _ _ _ (fun k => ?_) (fun k => ?_) ?_ ?_ ?_
  · -- the aggregated features' block: rows 2000·t … of the array
    show V c main_v47 (((cfg2.win 0).blk t).view.emb (ix2 (⟨(j 0).val, hj0⟩ : Fin 2000) k)) = V c main_v47 (ix2 (⟨t.val * 2000 + (j 0).val, hrow⟩ : Fin 50000) k)
    refine congrArg _ (funext fun a => Fin.ext ?_)
    match a with
    | ⟨0, _⟩ => show win2_0.index t (0 : Fin 2) * 2000 + 1 * (j 0).val = t.val * 2000 + (j 0).val; rw [e00]; omega
    | ⟨1, _⟩ => show win2_0.index t (1 : Fin 2) * 256 + 1 * k.val = k.val; rw [e01]; omega
  · -- the root features' block: the same rows
    show V c main_v35 (((cfg2.win 1).blk t).view.emb (ix2 (⟨(j 0).val, hj0⟩ : Fin 2000) k)) = V c main_v35 (ix2 (⟨t.val * 2000 + (j 0).val, hrow⟩ : Fin 50000) k)
    refine congrArg _ (funext fun a => Fin.ext ?_)
    match a with
    | ⟨0, _⟩ => show win2_1.index t (0 : Fin 2) * 2000 + 1 * (j 0).val = t.val * 2000 + (j 0).val; rw [e10]; omega
    | ⟨1, _⟩ => show win2_1.index t (1 : Fin 2) * 256 + 1 * k.val = k.val; rw [e11]; omega
  · -- the aggregated side's weights, whole
    funext y
    show V c main_arg8 (((cfg2.win 2).blk t).view.emb y) = V c main_arg8 y
    refine congrArg _ (funext fun a => Fin.ext ?_)
    match a with
    | ⟨0, _⟩ => show win2_2.index t (0 : Fin 2) * 256 + 1 * (y 0).val = (y 0).val; rw [e20]; omega
    | ⟨1, _⟩ => show win2_2.index t (1 : Fin 2) * 256 + 1 * (y 1).val = (y 1).val; rw [e21]; omega
  · -- the root side's weights, whole
    funext y
    show V c main_arg10 (((cfg2.win 4).blk t).view.emb y) = V c main_arg10 y
    refine congrArg _ (funext fun a => Fin.ext ?_)
    match a with
    | ⟨0, _⟩ => show win2_4.index t (0 : Fin 2) * 256 + 1 * (y 0).val = (y 0).val; rw [e40]; omega
    | ⟨1, _⟩ => show win2_4.index t (1 : Fin 2) * 256 + 1 * (y 1).val = (y 1).val; rw [e41]; omega
  · -- the bias row, whole
    funext y
    show V c main_arg9 (((cfg2.win 3).blk t).view.emb y) = V c main_arg9 y
    refine congrArg _ (funext fun a => Fin.ext ?_)
    match a with
    | ⟨0, _⟩ => show win2_3.index t (0 : Fin 1) * 256 + 1 * (y 0).val = (y 0).val; rw [e30]; omega

/-- An index of the array is in point t's block iff each coordinate is in the block's range on its axis. -/
theorem mem_blk (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v48).slice (win2_5.rect t)).set ↔ _
  rw [View.set_slice_whole, Rect.mem_set_unit]
  exact Iff.rfl

/-- The 25 blocks of 2000 rows tile the 50000 rows: row r is in the block of point r / 2000. -/
theorem rows_covered (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  obtain ⟨t, ht⟩ : ∃ t : Fin cfg2.N, t.val = (i 0).val / 2000 :=
    ⟨⟨(i 0).val / 2000, Nat.lt_of_lt_of_eq (by omega) N_2.symm⟩, rfl⟩
  obtain ⟨-, -, -, -, -, -, -, -, -, e50, e51⟩ := block_indices t
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; rw [e50, ht]; omega
  | ⟨1, _⟩ => show win2_5.index t (1 : Fin 2) * 256 ≤ (i 1).val ∧ (i 1).val < win2_5.index t (1 : Fin 2) * 256 + 256; rw [e51]; omega

/-- THE OUTPUT ARRAY after the region's 25 points: the layer of the arrays the region finds at its entry. -/
theorem final2 (V : (c : Dev nD) → (b : Ref sig .tc) → Buf (Elt Ideal) ((c : Thread nD τ).loc b)) (c : Dev nD) :
    (dat2 (F := Ideal) V c).arrAt 5 cfg2.N = Cert.Sage.dense (N := 50000) (K := 256) (M := 256) false (V c main_v47) (V c main_v35) (V c main_arg8) (V c main_arg9) (V c main_arg10) :=
  (dat2 (F := Ideal) V c).arrAt_eq_of_cover 5 _ (fun t _ => flushed_eq V c t) rows_covered

end Cert.KernelIdeal.Layer2

end
-- ==== Proof.RefLayer.lean ====
/-
  One layer of the reference program, as whole-array host operations, is the dense layer of the specification.

  For arbitrary operand arrays a, h (N × K), Wl, Wr (K × M) and b (M), the array

      [max with the zero array of]  ((a ·Wl) + spread(b)) + (h · Wr)

  read at entry (p, q) is ((∑ₖ a(p,k)·Wl(k,q)) + b(q)) + ∑ₖ h(p,k)·Wr(k,q) [clamped below at 0]: a product of two
  matrices contracted along one axis is, entry by entry, the sum over that axis; a bias row spread first to 1 × M and
  then down the N rows reads b(q) at every (p, q); the spread zero constant reads 0 everywhere. That is the
  specification's entry, term for term.
-/
import proofs.«163233_j8615704396355_1_alg».proof.Proof.Gen.ReferenceIdeal
import proofs.«163233_j8615704396355_1_alg».proof.Proof.Gen.ReferenceIdeal.Read
import proofs.«163233_j8615704396355_1_alg».proof.Proof.LibSageDense
import Idealize.ShloMosaic.Lib.ValueIdx
import Idealize.ShloMosaic.Lib.Pipeline.Value
import Idealize.ShloMosaic.PureOps.Ideal.Laws

noncomputable section

namespace Cert.ReferenceIdeal.Layer

open Cert.ReferenceIdeal Cert.ReferenceIdeal.Gen Idealize.ShloMosaic Idealize.ShloMosaic.ValueIdx

/-! ## A matrix product at an entry -/

/-- The 128-deep product (N × 128 times 128 × 256) at entry (p, q) is the sum over the contracted axis. -/
theorem dot128_apply (l : FVec Ideal S50000x128 .f32) (r : FVec Ideal S128x256 .f32) (p : Fin 50000) (q : Fin 256) :
    Host.dotGeneral (F := Ideal) dot_S50000x128_S128x256_S50000x256_1_0_0_1_n_n none l r (ix2 p q)
      = ∑ k : Fin 128, l (ix2 p k) * r (ix2 k q) := by
  simp only [Host.dotGeneral]
  rw [Ideal.dotGeneral_apply, ← Equiv.sum_comp (contrEquiv1 dot_S50000x128_S128x256_S50000x256_1_0_0_1_n_n 128 rfl rfl).symm]
  refine Finset.sum_congr rfl fun k _ => ?_
  have hk := contrEquiv1_symm_val dot_S50000x128_S128x256_S50000x256_1_0_0_1_n_n 128 rfl rfl k
  have el : dot_S50000x128_S128x256_S50000x256_1_0_0_1_n_n.lhsIdx (ix2 p q) ((contrEquiv1 dot_S50000x128_S128x256_S50000x256_1_0_0_1_n_n 128 rfl rfl).symm k) = ix2 p k :=
    funext fun a => Fin.ext (by
      match a with
      | ⟨0, _⟩ => exact Read.lhs_main_v22_0 _ _
      | ⟨1, _⟩ => exact (Read.lhs_main_v22_1 _ _).trans hk)
  have er : dot_S50000x128_S128x256_S50000x256_1_0_0_1_n_n.rhsIdx (ix2 p q) ((contrEquiv1 dot_S50000x128_S128x256_S50000x256_1_0_0_1_n_n 128 rfl rfl).symm k) = ix2 k q :=
    funext fun a => Fin.ext (by
      match a with
      | ⟨0, _⟩ => exact (Read.rhs_main_v22_0 _ _).trans hk
      | ⟨1, _⟩ => exact Read.rhs_main_v22_1 _ _)
  rw [el, er]

/-- The 256-deep product (N × 256 times 256 × 256) at entry (p, q) is the sum over the contracted axis. -/
theorem dot256_apply (l : FVec Ideal S50000x256 .f32) (r : FVec Ideal S256x256 .f32) (p : Fin 50000) (q : Fin 256) :
    Host.dotGeneral (F := Ideal) dot_S50000x256_S256x256_S50000x256_1_0_0_1_n_n none l r (ix2 p q)
      = ∑ k : Fin 256, l (ix2 p k) * r (ix2 k q) := by
  simp only [Host.dotGeneral]
  rw [Ideal.dotGeneral_apply, ← Equiv.sum_comp (contrEquiv1 dot_S50000x256_S256x256_S50000x256_1_0_0_1_n_n 256 rfl rfl).symm]
  refine Finset.sum_congr rfl fun k _ => ?_
  have hk := contrEquiv1_symm_val dot_S50000x256_S256x256_S50000x256_1_0_0_1_n_n 256 rfl rfl k
  have el : dot_S50000x256_S256x256_S50000x256_1_0_0_1_n_n.lhsIdx (ix2 p q) ((contrEquiv1 dot_S50000x256_S256x256_S50000x256_1_0_0_1_n_n 256 rfl rfl).symm k) = ix2 p k :=
    funext fun a => Fin.ext (by
      match a with
      | ⟨0, _⟩ => exact Read.lhs_main_v47_0 _ _
      | ⟨1, _⟩ => exact (Read.lhs_main_v47_1 _ _).trans hk)
  have er : dot_S50000x256_S256x256_S50000x256_1_0_0_1_n_n.rhsIdx (ix2 p q) ((contrEquiv1 dot_S50000x256_S256x256_S50000x256_1_0_0_1_n_n 256 rfl rfl).symm k) = ix2 k q :=
    funext fun a => Fin.ext (by
      match a with
      | ⟨0, _⟩ => exact (Read.rhs_main_v47_0 _ _).trans hk
      | ⟨1, _⟩ => exact Read.rhs_main_v47_1 _ _)
  rw [el, er]

/-! ## The spread bias row and the spread zero -/

/-- The bias row, spread to 1 × 256 and then down all rows, reads b(q) at entry (p, q). -/
theorem bias_apply (b : FVec Ideal S256 .f32) (p : Fin 50000) (q : Fin 256) :
    broadcastInDim S50000x256 ![0, 1] bcast_S1x256_S50000x256_0_1 (broadcastInDim S1x256 ![1] bcast_S256_S1x256_1 b) (ix2 p q)
      = b (ix1 q) := by
  rw [broadcastInDim_apply _ bcast_S1x256_S50000x256_0_1 _ (ix2 p q) (ix2 (0 : Fin 1) q) (fun a => match a with
        | ⟨0, _⟩ => by show 0 = if (1 : Nat) = 1 then 0 else p.val; rw [if_pos rfl]
        | ⟨1, _⟩ => by show q.val = if (256 : Nat) = 1 then 0 else q.val; rw [if_neg (by decide)]),
      broadcastInDim_apply _ bcast_S256_S1x256_1 b (ix2 (0 : Fin 1) q) (ix1 q) (fun a => match a with
        | ⟨0, _⟩ => by show q.val = if (256 : Nat) = 1 then 0 else q.val; rw [if_neg (by decide)])]

/-- The zero constant spread over the whole array reads 0 everywhere. -/
theorem zero_apply (i : S50000x256.Idx) :
    broadcastInDim S50000x256 ![] bcast_S_S50000x256 (constant (F := Ideal) S_ .f32 0x00000000#32) i = 0 := by
  rw [broadcastInDim_apply _ bcast_S_S50000x256 _ i ix0 (fun a => a.elim0), constant_apply, Ideal.ofBits_zero_f32]

/-! ## The three layers -/

/-- The first layer (128 input columns, rectified). -/
theorem layer0_eq (a h : FVec Ideal S50000x128 .f32) (Wl Wr : FVec Ideal S128x256 .f32) (b : FVec Ideal S256 .f32) :
    maximumf (addf (addf (Host.dotGeneral dot_S50000x128_S128x256_S50000x256_1_0_0_1_n_n none a Wl) (broadcastInDim S50000x256 ![0, 1] bcast_S1x256_S50000x256_0_1 (broadcastInDim S1x256 ![1] bcast_S256_S1x256_1 b))) (Host.dotGeneral dot_S50000x128_S128x256_S50000x256_1_0_0_1_n_n none h Wr)) (broadcastInDim S50000x256 ![] bcast_S_S50000x256 (constant S_ .f32 0x00000000#32))
      = Cert.Sage.dense (N := 50000) (K := 128) (M := 256) true a h Wl b Wr := by
  funext i
  obtain ⟨p, q, rfl⟩ : ∃ (p : Fin 50000) (q : Fin 256), i = ix2 p q := ⟨i 0, i 1, eq_ix2 i⟩
  rw [maximumf_apply, addf_apply, addf_apply, dot128_apply, dot128_apply, bias_apply, zero_apply, Cert.Sage.dense_apply]
  unfold Cert.Sage.denseAt Cert.Sage.preAt
  rw [if_pos rfl]

/-- The second layer (256 input columns, rectified). -/
theorem layer1_eq (a h : FVec Ideal S50000x256 .f32) (Wl Wr : FVec Ideal S256x256 .f32) (b : FVec Ideal S256 .f32) :
    maximumf (addf (addf (Host.dotGeneral dot_S50000x256_S256x256_S50000x256_1_0_0_1_n_n none a Wl) (broadcastInDim S50000x256 ![0, 1] bcast_S1x256_S50000x256_0_1 (broadcastInDim S1x256 ![1] bcast_S256_S1x256_1 b))) (Host.dotGeneral dot_S50000x256_S256x256_S50000x256_1_0_0_1_n_n none h Wr)) (broadcastInDim S50000x256 ![] bcast_S_S50000x256 (constant S_ .f32 0x00000000#32))
      = Cert.Sage.dense (N := 50000) (K := 256) (M := 256) true a h Wl b Wr := by
  funext i
  obtain ⟨p, q, rfl⟩ : ∃ (p : Fin 50000) (q : Fin 256), i = ix2 p q := ⟨i 0, i 1, eq_ix2 i⟩
  rw [maximumf_apply, addf_apply, addf_apply, dot256_apply, dot256_apply, bias_apply, zero_apply, Cert.Sage.dense_apply]
  unfold Cert.Sage.denseAt Cert.Sage.preAt
  rw [if_pos rfl]

/-- The last layer (256 input columns, not rectified). -/
theorem layer2_eq (a h : FVec Ideal S50000x256 .f32) (Wl Wr : FVec Ideal S256x256 .f32) (b : FVec Ideal S256 .f32) :
    addf (addf (Host.dotGeneral dot_S50000x256_S256x256_S50000x256_1_0_0_1_n_n none a Wl) (broadcastInDim S50000x256 ![0, 1] bcast_S1x256_S50000x256_0_1 (broadcastInDim S1x256 ![1] bcast_S256_S1x256_1 b))) (Host.dotGeneral dot_S50000x256_S256x256_S50000x256_1_0_0_1_n_n none h Wr)
      = Cert.Sage.dense (N := 50000) (K := 256) (M := 256) false a h Wl b Wr := by
  funext i
  obtain ⟨p, q, rfl⟩ : ∃ (p : Fin 50000) (q : Fin 256), i = ix2 p q := ⟨i 0, i 1, eq_ix2 i⟩
  rw [addf_apply, addf_apply, dot256_apply, dot256_apply, bias_apply, Cert.Sage.dense_apply]
  unfold Cert.Sage.denseAt Cert.Sage.preAt
  rw [if_neg (by decide)]

end Cert.ReferenceIdeal.Layer

end
-- ==== Proof.RefNet.lean ====
/-
  The reference program's result is the three-layer network of the specification.

  The result term of the run is a closed composition of whole-array operations. Read from the inside out it is, three
  times over: the mean aggregation over incoming edges of the current features (source and destination rows of the
  edge list, in-degree at least one), then the layer's two matrix products, the spread bias and — for the first two
  layers — the maximum with the zero array. Naming the three layers' arrays (`hidden1`, `hidden2`) folds the term, by
  definition only, into "last layer of the aggregation of hidden2 and hidden2". Each layer is the specification's dense
  layer for arbitrary operand arrays, so the whole is the specification's network with the two aggregations as its
  aggregation maps.
-/
import proofs.«163233_j8615704396355_1_alg».proof.Proof.Gen.ReferenceIdeal.Run
import proofs.«163233_j8615704396355_1_alg».proof.Proof.RefLayer
import proofs.«163233_j8615704396355_1_alg».proof.Proof.RefAgg

noncomputable section

namespace Cert.ReferenceIdeal.Net

open Cert.ReferenceIdeal Cert.ReferenceIdeal.Gen Idealize.ShloMosaic Idealize.ShloMosaic.TcCoe Idealize.SL.Sem Idealize.ShloMosaic.StableHlo

/-! ## The three layers as whole-array operations -/

/-- The first layer's array: rectified, 128 input columns. -/
def refLayer0 (a h : FVec Ideal S50000x128 .f32) (Wl : FVec Ideal S128x256 .f32) (b : FVec Ideal S256 .f32) (Wr : FVec Ideal S128x256 .f32) :
    FVec Ideal S50000x256 .f32 :=
  maximumf (addf (addf (Host.dotGeneral dot_S50000x128_S128x256_S50000x256_1_0_0_1_n_n none a Wl) (broadcastInDim S50000x256 ![0, 1] bcast_S1x256_S50000x256_0_1 (broadcastInDim S1x256 ![1] bcast_S256_S1x256_1 b))) (Host.dotGeneral dot_S50000x128_S128x256_S50000x256_1_0_0_1_n_n none h Wr)) (broadcastInDim S50000x256 ![] bcast_S_S50000x256 (constant S_ .f32 0x00000000#32))

/-- The second layer's array: rectified, 256 input columns. -/
def refLayer1 (a h : FVec Ideal S50000x256 .f32) (Wl : FVec Ideal S256x256 .f32) (b : FVec Ideal S256 .f32) (Wr : FVec Ideal S256x256 .f32) :
    FVec Ideal S50000x256 .f32 :=
  maximumf (addf (addf (Host.dotGeneral dot_S50000x256_S256x256_S50000x256_1_0_0_1_n_n none a Wl) (broadcastInDim S50000x256 ![0, 1] bcast_S1x256_S50000x256_0_1 (broadcastInDim S1x256 ![1] bcast_S256_S1x256_1 b))) (Host.dotGeneral dot_S50000x256_S256x256_S50000x256_1_0_0_1_n_n none h Wr)) (broadcastInDim S50000x256 ![] bcast_S_S50000x256 (constant S_ .f32 0x00000000#32))

/-- The last layer's array: not rectified, 256 input columns. -/
def refLayer2 (a h : FVec Ideal S50000x256 .f32) (Wl : FVec Ideal S256x256 .f32) (b : FVec Ideal S256 .f32) (Wr : FVec Ideal S256x256 .f32) :
    FVec Ideal S50000x256 .f32 :=
  addf (addf (Host.dotGeneral dot_S50000x256_S256x256_S50000x256_1_0_0_1_n_n none a Wl) (broadcastInDim S50000x256 ![0, 1] bcast_S1x256_S50000x256_0_1 (broadcastInDim S1x256 ![1] bcast_S256_S1x256_1 b))) (Host.dotGeneral dot_S50000x256_S256x256_S50000x256_1_0_0_1_n_n none h Wr)

theorem refLayer0_eq (a h : FVec Ideal S50000x128 .f32) (Wl : FVec Ideal S128x256 .f32) (b : FVec Ideal S256 .f32) (Wr : FVec Ideal S128x256 .f32) :
    refLayer0 a h Wl b Wr = Cert.Sage.dense (N := 50000) (K := 128) (M := 256) true a h Wl b Wr := Layer.layer0_eq a h Wl Wr b

theorem refLayer1_eq (a h : FVec Ideal S50000x256 .f32) (Wl : FVec Ideal S256x256 .f32) (b : FVec Ideal S256 .f32) (Wr : FVec Ideal S256x256 .f32) :
    refLayer1 a h Wl b Wr = Cert.Sage.dense (N := 50000) (K := 256) (M := 256) true a h Wl b Wr := Layer.layer1_eq a h Wl Wr b

theorem refLayer2_eq (a h : FVec Ideal S50000x256 .f32) (Wl : FVec Ideal S256x256 .f32) (b : FVec Ideal S256 .f32) (Wr : FVec Ideal S256x256 .f32) :
    refLayer2 a h Wl b Wr = Cert.Sage.dense (N := 50000) (K := 256) (M := 256) false a h Wl b Wr := Layer.layer2_eq a h Wl Wr b

/-! ## The hidden features of the run -/

/-- The first layer's output on the run's arguments. -/
def hidden1 (m : (ℓ : Loc nD τ sig) → Buf (Elt Ideal) ℓ) (c : Dev nD) : FVec Ideal S50000x256 .f32 :=
  refLayer0 (Agg.agg128 (Agg.srcOf (m ((c.tc : Thread nD τ).loc main_arg1))) (Agg.dstOf (m ((c.tc : Thread nD τ).loc main_arg1))) (Agg.cntOf (Agg.dstOf (m ((c.tc : Thread nD τ).loc main_arg1)))) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4))

/-- The second layer's output on the run's arguments. -/
def hidden2 (m : (ℓ : Loc nD τ sig) → Buf (Elt Ideal) ℓ) (c : Dev nD) : FVec Ideal S50000x256 .f32 :=
  refLayer1 (Agg.agg256 (Agg.srcOf (m ((c.tc : Thread nD τ).loc main_arg1))) (Agg.dstOf (m ((c.tc : Thread nD τ).loc main_arg1))) (Agg.cntOf (Agg.dstOf (m ((c.tc : Thread nD τ).loc main_arg1)))) (hidden1 m c)) (hidden1 m c) (m ((c.tc : Thread nD τ).loc main_arg5)) (m ((c.tc : Thread nD τ).loc main_arg6)) (m ((c.tc : Thread nD τ).loc main_arg7))

/-- The run's result, folded: the last layer on the aggregation of the second layer's output. Only definitions unfold. -/
theorem res_fold (m : (ℓ : Loc nD τ sig) → Buf (Elt Ideal) ℓ) (c : Dev nD) :
    Cert.ReferenceIdeal.Value.res_main_v77 (F := Ideal) m c
      = refLayer2 (Agg.agg256 (Agg.srcOf (m ((c.tc : Thread nD τ).loc main_arg1))) (Agg.dstOf (m ((c.tc : Thread nD τ).loc main_arg1))) (Agg.cntOf (Agg.dstOf (m ((c.tc : Thread nD τ).loc main_arg1)))) (hidden2 m c)) (hidden2 m c) (m ((c.tc : Thread nD τ).loc main_arg8)) (m ((c.tc : Thread nD τ).loc main_arg9)) (m ((c.tc : Thread nD τ).loc main_arg10)) := by
  unfold Cert.ReferenceIdeal.Value.res_main_v77
  rfl

/-! ## The result is the specification's network -/

theorem res_eq (m : (ℓ : Loc nD τ sig) → Buf (Elt Ideal) ℓ) (c : Dev nD) :
    Cert.ReferenceIdeal.Value.res_main_v77 (F := Ideal) m c
      = Cert.Sage.net (N := 50000) (K₀ := 128) (M := 256)
          (Agg.agg128 (Agg.srcOf (m ((c.tc : Thread nD τ).loc main_arg1))) (Agg.dstOf (m ((c.tc : Thread nD τ).loc main_arg1))) (Agg.cntOf (Agg.dstOf (m ((c.tc : Thread nD τ).loc main_arg1)))))
          (Agg.agg256 (Agg.srcOf (m ((c.tc : Thread nD τ).loc main_arg1))) (Agg.dstOf (m ((c.tc : Thread nD τ).loc main_arg1))) (Agg.cntOf (Agg.dstOf (m ((c.tc : Thread nD τ).loc main_arg1)))))
          (m ((c.tc : Thread nD τ).loc main_arg0)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  have e1 : hidden1 m c = Cert.Sage.dense (N := 50000) (K := 128) (M := 256) true (Agg.agg128 (Agg.srcOf (m ((c.tc : Thread nD τ).loc main_arg1))) (Agg.dstOf (m ((c.tc : Thread nD τ).loc main_arg1))) (Agg.cntOf (Agg.dstOf (m ((c.tc : Thread nD τ).loc main_arg1)))) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4)) :=
    refLayer0_eq _ _ _ _ _
  have e2 : hidden2 m c = Cert.Sage.dense (N := 50000) (K := 256) (M := 256) true (Agg.agg256 (Agg.srcOf (m ((c.tc : Thread nD τ).loc main_arg1))) (Agg.dstOf (m ((c.tc : Thread nD τ).loc main_arg1))) (Agg.cntOf (Agg.dstOf (m ((c.tc : Thread nD τ).loc main_arg1)))) (hidden1 m c)) (hidden1 m c) (m ((c.tc : Thread nD τ).loc main_arg5)) (m ((c.tc : Thread nD τ).loc main_arg6)) (m ((c.tc : Thread nD τ).loc main_arg7)) :=
    refLayer1_eq _ _ _ _ _
  rw [res_fold, refLayer2_eq, e2, e1]
  rfl

end Cert.ReferenceIdeal.Net

end
-- ==== Proof.lean ====
/-
  Three stacked mean-aggregating graph-convolution layers: a pipelined kernel per layer against the plain reference.

  Both programs take node features x (50000 × 128), an edge list e (2 × 800000, integers) and, per layer, two weight
  matrices Wl, Wr and a bias row b (128 → 256 → 256 → 256 columns). Per layer, with h the current features:
    agg = (scatter-add, by destination, of the rows of h gathered by source) / max(in-degree, 1),
    out = (agg·Wl + b) + h·Wr in the reference,  (agg·Wl + h·Wr) + b in the kernel,
  and the first two layers clamp the result below at 0. The aggregation is spelt by the same host operations in both
  programs (a negative source index wraps by the node count; an out-of-range destination is dropped), so it is carried
  as one function of the features. In the kernel the weight and feature blocks are narrowed to bf16 before each matrix
  product; over the extended reals a change of float format is the identity, a product into the zero accumulator is
  the plain sum over the contracted axis, and a row block of 2000 nodes of the output depends only on the same rows of
  agg and h, so the 25 blocks tile the whole array. What remains is where the bias is added: addition on the extended
  reals is commutative and associative (infinities included), so the two orders give the same entry and the
  precondition that the inputs are finite is never opened.

  `algebraic`: the kernel's result array is read off its run — the launch memory folded through three host stretches
  and three regions — as three stacked dense layers over the aggregation (Cert.Sage.net); the reference's composed
  term folds into the same three layers. `preserves` is trivial: the idealization rewrote no operation. The three
  frames are the programs' runs with the result dropped.
-/
import proofs.«163233_j8615704396355_1_alg».proof.Defs
import proofs.«163233_j8615704396355_1_alg».proof.Proof.Gen.Kernel
import proofs.«163233_j8615704396355_1_alg».proof.Proof.Gen.Kernel.Frame
import proofs.«163233_j8615704396355_1_alg».proof.Proof.Gen.KernelIdeal
import proofs.«163233_j8615704396355_1_alg».proof.Proof.Gen.KernelIdeal.Frame
import proofs.«163233_j8615704396355_1_alg».proof.Proof.Gen.ReferenceIdeal
import proofs.«163233_j8615704396355_1_alg».proof.Proof.Gen.ReferenceIdeal.Run
import proofs.«163233_j8615704396355_1_alg».proof.Proof.Gen.Pre_finite_inputs
import proofs.«163233_j8615704396355_1_alg».proof.Proof.LibSageDense
import proofs.«163233_j8615704396355_1_alg».proof.Proof.KernelAgg
import proofs.«163233_j8615704396355_1_alg».proof.Proof.RefAgg
import proofs.«163233_j8615704396355_1_alg».proof.Proof.KernelResultRun
import proofs.«163233_j8615704396355_1_alg».proof.Proof.KernelChain
import proofs.«163233_j8615704396355_1_alg».proof.Proof.KernelLayer0
import proofs.«163233_j8615704396355_1_alg».proof.Proof.KernelLayer1
import proofs.«163233_j8615704396355_1_alg».proof.Proof.KernelLayer2
import proofs.«163233_j8615704396355_1_alg».proof.Proof.RefNet
import Idealize.ShloMosaic.Adequacy
import Idealize.ShloMosaic.Init

noncomputable section

open Idealize.ShloMosaic Idealize.ShloMosaic.TcCoe Idealize.SL.Sem

namespace Cert.Proof

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The mean aggregation the two programs spell is one function: the same host operations over the same shapes. -/
theorem agg128_same : Cert.ReferenceIdeal.Agg.agg128 (F := Ideal) = Cert.KernelIdeal.Agg.agg128 (F := Ideal) := rfl
theorem agg256_same : Cert.ReferenceIdeal.Agg.agg256 (F := Ideal) = Cert.KernelIdeal.Agg.agg256 (F := Ideal) := rfl
theorem srcOf_same : Cert.ReferenceIdeal.Agg.srcOf (F := Ideal) = Cert.KernelIdeal.Agg.srcOf (F := Ideal) := rfl
theorem dstOf_same : Cert.ReferenceIdeal.Agg.dstOf (F := Ideal) = Cert.KernelIdeal.Agg.dstOf (F := Ideal) := rfl
theorem cntOf_same : Cert.ReferenceIdeal.Agg.cntOf (F := Ideal) = Cert.KernelIdeal.Agg.cntOf (F := Ideal) := rfl

/-- From memories agreeing on the arguments both idealized programs end with the same result array: three stacked
    layers over the mean aggregation of the arguments. The kernel's is read off its run through the six boundaries, each
    region's output being the dense layer of what the region is entered with; the reference's is its composed term folded
    into the same layers. The two layers differ only in where the bias is added, which on the extended reals is the same sum. -/
theorem algebraic : Cert.algebraic_KernelIdeal_ReferenceIdeal := by
  intro m ρ m' ρ' _ hagree
  refine ⟨fun c => Cert.Sage.net (N := 50000) (K₀ := 128) (M := 256)
      (Cert.KernelIdeal.Agg.agg128 (F := Ideal) (Cert.KernelIdeal.Chain.srcRow m c) (Cert.KernelIdeal.Chain.dstRow m c) (Cert.KernelIdeal.Chain.degCol m c))
      (Cert.KernelIdeal.Agg.agg256 (F := Ideal) (Cert.KernelIdeal.Chain.srcRow m c) (Cert.KernelIdeal.Chain.dstRow m c) (Cert.KernelIdeal.Chain.degCol m c))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result_eq m ρ c Cert.KernelIdeal.Layer0.final0 Cert.KernelIdeal.Layer1.final1 Cert.KernelIdeal.Layer2.final2), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Net.res_eq, a0, a1, a2, a3, a4, a5, a6, a7, a8, a9, a10,
      agg128_same, agg256_same, srcOf_same, dstOf_same, cntOf_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
